-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x512 : Shape := ⟨2, ![512, 512]⟩
abbrev S512 : Shape := ⟨1, ![512]⟩
abbrev S100000 : Shape := ⟨1, ![100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S100000x512 .f32) (main_arg1 : FVec F S512x512 .f32) (main_arg2 : FVec F S512x512 .f32) (main_arg3 : FVec F S512x512 .f32) (main_arg4 : FVec F S512 .f32) (main_arg5 : IVec S100000 32) (main_arg6 : IVec S100000 32) (main_arg7 : IVec S100000 32) (main_arg8 : IVec S100000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S100000x512 : Shape := ⟨2, ![100000, 512]⟩
abbrev S512x512 : Shape := ⟨2, ![512, 512]⟩
abbrev S512 : Shape := ⟨1, ![512]⟩
abbrev S100000 : Shape := ⟨1, ![100000]⟩
abbrev S1536x512 : Shape := ⟨2, ![1536, 512]⟩
abbrev S100000x1536 : Shape := ⟨2, ![100000, 1536]⟩
abbrev S1000x512 : Shape := ⟨2, ![1000, 512]⟩
abbrev S1000x1536 : Shape := ⟨2, ![1000, 1536]⟩
abbrev S99999 : Shape := ⟨1, ![99999]⟩
abbrev S199999 : Shape := ⟨1, ![199999]⟩
abbrev S_ : Shape := ⟨0, ![]⟩
abbrev S199999x1 : Shape := ⟨2, ![199999, 1]⟩
abbrev S199999x512 : Shape := ⟨2, ![199999, 512]⟩
abbrev S1x512 : Shape := ⟨2, ![1, 512]⟩

abbrev nBuf : Space → Nat
  | .hbm => 119
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S100000, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S1536x512, .f32⟩
  | .hbm, ⟨10, _⟩ => ⟨S100000x1536, .f32⟩
  | .hbm, ⟨11, _⟩ => ⟨S100000x512, .f32⟩
  | .hbm, ⟨12, _⟩ => ⟨S100000x512, .f32⟩
  | .hbm, ⟨13, _⟩ => ⟨S100000x512, .f32⟩
  | .hbm, ⟨14, _⟩ => ⟨S100000, .i32⟩
  | .hbm, ⟨15, _⟩ => ⟨S99999, .i32⟩
  | .hbm, ⟨16, _⟩ => ⟨S199999, .i32⟩
  | .hbm, ⟨17, _⟩ => ⟨S99999, .i32⟩
  | .hbm, ⟨18, _⟩ => ⟨S199999, .i32⟩
  | .hbm, ⟨19, _⟩ => ⟨S_, .i32⟩
  | .hbm, ⟨20, _⟩ => ⟨S199999, .i32⟩
  | .hbm, ⟨21, _⟩ => ⟨S199999, .i1⟩
  | .hbm, ⟨22, _⟩ => ⟨S_, .i32⟩
  | .hbm, ⟨23, _⟩ => ⟨S199999, .i32⟩
  | .hbm, ⟨24, _⟩ => ⟨S199999, .i32⟩
  | .hbm, ⟨25, _⟩ => ⟨S199999, .i32⟩
  | .hbm, ⟨26, _⟩ => ⟨S199999x1, .i32⟩
  | .hbm, ⟨27, _⟩ => ⟨S199999, .i32⟩
  | .hbm, ⟨28, _⟩ => ⟨S199999, .f32⟩
  | .hbm, ⟨29, _⟩ => ⟨S_, .f32⟩
  | .hbm, ⟨30, _⟩ => ⟨S199999, .f32⟩
  | .hbm, ⟨31, _⟩ => ⟨S199999, .f32⟩
  | .hbm, ⟨32, _⟩ => ⟨S_, .f32⟩
  | .hbm, ⟨33, _⟩ => ⟨S199999, .f32⟩
  | .hbm, ⟨34, _⟩ => ⟨S199999, .f32⟩
  | .hbm, ⟨35, _⟩ => ⟨S_, .i32⟩
  | .hbm, ⟨36, _⟩ => ⟨S199999, .i32⟩
  | .hbm, ⟨37, _⟩ => ⟨S199999, .i1⟩
  | .hbm, ⟨38, _⟩ => ⟨S_, .i32⟩
  | .hbm, ⟨39, _⟩ => ⟨S199999, .i32⟩
  | .hbm, ⟨40, _⟩ => ⟨S199999, .i32⟩
  | .hbm, ⟨41, _⟩ => ⟨S199999, .i32⟩
  | .hbm, ⟨42, _⟩ => ⟨S199999x1, .i32⟩
  | .hbm, ⟨43, _⟩ => ⟨S199999, .i32⟩
  | .hbm, ⟨44, _⟩ => ⟨S_, .i32⟩
  | .hbm, ⟨45, _⟩ => ⟨S199999, .i32⟩
  | .hbm, ⟨46, _⟩ => ⟨S199999, .i32⟩
  | .hbm, ⟨47, _⟩ => ⟨S199999, .f32⟩
  | .hbm, ⟨48, _⟩ => ⟨S_, .i32⟩
  | .hbm, ⟨49, _⟩ => ⟨S199999, .i32⟩
  | .hbm, ⟨50, _⟩ => ⟨S199999, .i1⟩
  | .hbm, ⟨51, _⟩ => ⟨S_, .i32⟩
  | .hbm, ⟨52, _⟩ => ⟨S199999, .i32⟩
  | .hbm, ⟨53, _⟩ => ⟨S199999, .i32⟩
  | .hbm, ⟨54, _⟩ => ⟨S199999, .i32⟩
  | .hbm, ⟨55, _⟩ => ⟨S199999x1, .i32⟩
  | .hbm, ⟨56, _⟩ => ⟨S199999, .i32⟩
  | .hbm, ⟨57, _⟩ => ⟨S_, .i32⟩
  | .hbm, ⟨58, _⟩ => ⟨S199999, .i32⟩
  | .hbm, ⟨59, _⟩ => ⟨S199999, .i32⟩
  | .hbm, ⟨60, _⟩ => ⟨S_, .i32⟩
  | .hbm, ⟨61, _⟩ => ⟨S199999, .i32⟩
  | .hbm, ⟨62, _⟩ => ⟨S199999, .i32⟩
  | .hbm, ⟨63, _⟩ => ⟨S199999, .f32⟩
  | .hbm, ⟨64, _⟩ => ⟨S199999, .f32⟩
  | .hbm, ⟨65, _⟩ => ⟨S199999, .f32⟩
  | .hbm, ⟨66, _⟩ => ⟨S_, .f32⟩
  | .hbm, ⟨67, _⟩ => ⟨S199999, .f32⟩
  | .hbm, ⟨68, _⟩ => ⟨S199999, .f32⟩
  | .hbm, ⟨69, _⟩ => ⟨S_, .f32⟩
  | .hbm, ⟨70, _⟩ => ⟨S199999, .f32⟩
  | .hbm, ⟨71, _⟩ => ⟨S199999, .f32⟩
  | .hbm, ⟨72, _⟩ => ⟨S199999, .f32⟩
  | .hbm, ⟨73, _⟩ => ⟨S199999x1, .f32⟩
  | .hbm, ⟨74, _⟩ => ⟨S_, .i32⟩
  | .hbm, ⟨75, _⟩ => ⟨S199999, .i32⟩
  | .hbm, ⟨76, _⟩ => ⟨S199999, .i1⟩
  | .hbm, ⟨77, _⟩ => ⟨S_, .i32⟩
  | .hbm, ⟨78, _⟩ => ⟨S199999, .i32⟩
  | .hbm, ⟨79, _⟩ => ⟨S199999, .i32⟩
  | .hbm, ⟨80, _⟩ => ⟨S199999, .i32⟩
  | .hbm, ⟨81, _⟩ => ⟨S199999x1, .i32⟩
  | .hbm, ⟨82, _⟩ => ⟨S199999x512, .f32⟩
  | .hbm, ⟨83, _⟩ => ⟨S199999x512, .f32⟩
  | .hbm, ⟨84, _⟩ => ⟨S199999x512, .f32⟩
  | .hbm, ⟨85, _⟩ => ⟨S199999x1, .f32⟩
  | .hbm, ⟨86, _⟩ => ⟨S_, .i32⟩
  | .hbm, ⟨87, _⟩ => ⟨S199999, .i32⟩
  | .hbm, ⟨88, _⟩ => ⟨S199999, .i1⟩
  | .hbm, ⟨89, _⟩ => ⟨S_, .i32⟩
  | .hbm, ⟨90, _⟩ => ⟨S199999, .i32⟩
  | .hbm, ⟨91, _⟩ => ⟨S199999, .i32⟩
  | .hbm, ⟨92, _⟩ => ⟨S199999, .i32⟩
  | .hbm, ⟨93, _⟩ => ⟨S199999x1, .i32⟩
  | .hbm, ⟨94, _⟩ => ⟨S199999x512, .f32⟩
  | .hbm, ⟨95, _⟩ => ⟨S199999x512, .f32⟩
  | .hbm, ⟨96, _⟩ => ⟨S199999x512, .f32⟩
  | .hbm, ⟨97, _⟩ => ⟨S199999x512, .f32⟩
  | .hbm, ⟨98, _⟩ => ⟨S199999x1, .f32⟩
  | .hbm, ⟨99, _⟩ => ⟨S_, .i32⟩
  | .hbm, ⟨100, _⟩ => ⟨S199999, .i32⟩
  | .hbm, ⟨101, _⟩ => ⟨S199999, .i1⟩
  | .hbm, ⟨102, _⟩ => ⟨S_, .i32⟩
  | .hbm, ⟨103, _⟩ => ⟨S199999, .i32⟩
  | .hbm, ⟨104, _⟩ => ⟨S199999, .i32⟩
  | .hbm, ⟨105, _⟩ => ⟨S199999, .i32⟩
  | .hbm, ⟨106, _⟩ => ⟨S199999x1, .i32⟩
  | .hbm, ⟨107, _⟩ => ⟨S199999x512, .f32⟩
  | .hbm, ⟨108, _⟩ => ⟨S199999x512, .f32⟩
  | .hbm, ⟨109, _⟩ => ⟨S199999x512, .f32⟩
  | .hbm, ⟨110, _⟩ => ⟨S199999x512, .f32⟩
  | .hbm, ⟨111, _⟩ => ⟨S1x512, .f32⟩
  | .hbm, ⟨112, _⟩ => ⟨S199999x512, .f32⟩
  | .hbm, ⟨113, _⟩ => ⟨S199999x512, .f32⟩
  | .hbm, ⟨114, _⟩ => ⟨S_, .f32⟩
  | .hbm, ⟨115, _⟩ => ⟨S100000x512, .f32⟩
  | .hbm, ⟨116, _⟩ => ⟨S199999x1, .i32⟩
  | .hbm, ⟨117, _⟩ => ⟨S100000x512, .f32⟩
  | .hbm, ⟨118, _⟩ => ⟨S100000x512, .f32⟩
  | .local _ .vmem, ⟨0, _⟩ => ⟨S1000x512, .f32⟩
  | .local _ .vmem, ⟨1, _⟩ => ⟨S1000x512, .f32⟩
  | .local _ .vmem, ⟨2, _⟩ => ⟨S1536x512, .f32⟩
  | .local _ .vmem, ⟨3, _⟩ => ⟨S1000x1536, .f32⟩
  | .local _ .vmem, ⟨4, _⟩ => ⟨S1000x1536, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_c_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S512x512_S512x512_S512x512_S1536x512_d0 : Shape.Concatenates [S512x512, S512x512, S512x512] S1536x512 0
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1000x1536_S1000x1536_0_0 : ∀ a, (![0, 0] : Fin 2 → Nat) a + S1000x1536.size a ≤ S1000x1536.size a
  h_S1000x1536 : 0 < S1000x1536.numel
  slices_S100000x1536_S100000x512_0_0 : S100000x1536.Slices ![0, 0] S100000x512
  slices_S100000x1536_S100000x512_0_512 : S100000x1536.Slices ![0, 512] S100000x512
  slices_S100000x1536_S100000x512_0_1024 : S100000x1536.Slices ![0, 1024] S100000x512
  slices_S100000_S99999_1 : S100000.Slices ![1] S99999
  concatenates_S100000_S99999_S199999_d0 : Shape.Concatenates [S100000, S99999] S199999 0
  bcast_S_S199999 : S_.BroadcastsInDim S199999 (![] : Fin 0 → Fin S199999.rank)
  bcast_S199999_S199999x1_0 : S199999.BroadcastsInDim S199999x1 (![0] : Fin 1 → Fin S199999x1.rank)
  bcast_S199999x1_S199999x512_0_1 : S199999x1.BroadcastsInDim S199999x512 (![0, 1] : Fin 2 → Fin S199999x512.rank)
  bcast_S512_S1x512_1 : S512.BroadcastsInDim S1x512 (![1] : Fin 1 → Fin S1x512.rank)
  bcast_S1x512_S199999x512_0_1 : S1x512.BroadcastsInDim S199999x512 (![0, 1] : Fin 2 → Fin S199999x512.rank)
  bcast_S_S100000x512 : S_.BroadcastsInDim S100000x512 (![] : Fin 0 → Fin S100000x512.rank)
  dot_S1000x512_S1536x512_S1000x1536_1_1_0_0_n_n_wf : DotDims.WF S1000x512 S1536x512 S1000x1536 [1] [1] [0] [0] [] []
  gather_S100000_S199999x1_S199999_n_0_n_n_0_1_1_wf : GatherDims.WF S100000 S199999x1 S199999 [] [0] [] [0] [] 1 ![1]
  gather_S100000x512_S199999x1_S199999x512_1_0_n_n_0_1_1512_wf : GatherDims.WF S100000x512 S199999x1 S199999x512 [1] [0] [] [0] [] 1 ![1, 512]
  scatter_S100000x512_S199999x1_S199999x512_1_0_0_1_wf : ScatterDims.WF S100000x512 S199999x1 S199999x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1536.size a ≤ S100000x1536.size a
  hwx0_2 : ∀ i : grid0.Coords, EltTy.bits .f32 = 32 ∨ (Rect.block (s := S100000x1536) S1000x1536.size (cc0_transform_2 i) (hinb0_2 i)).WholeWords (EltTy.packing .f32)

variable [Facts₀]

def dot_S1000x512_S1536x512_S1000x1536_1_1_0_0_n_n : DotDims S1000x512 S1536x512 S1000x1536 where
  lhsContracting := [1]
  rhsContracting := [1]
  lhsNonContracting := [0]
  rhsNonContracting := [0]
  lhsBatch := []
  rhsBatch := []
  wf := dot_S1000x512_S1536x512_S1000x1536_1_1_0_0_n_n_wf
def gather_S100000_S199999x1_S199999_n_0_n_n_0_1_1 : GatherDims S100000 S199999x1 S199999 where
  offsetDims := []
  collapsedSliceDims := [0]
  operandBatchingDims := []
  startIndicesBatchingDims := []
  startIndexMap := [0]
  indexVectorDim := 1
  sliceSizes := ![1]
  wf := gather_S100000_S199999x1_S199999_n_0_n_n_0_1_1_wf
def gather_S100000x512_S199999x1_S199999x512_1_0_n_n_0_1_1512 : GatherDims S100000x512 S199999x1 S199999x512 where
  offsetDims := [1]
  collapsedSliceDims := [0]
  operandBatchingDims := []
  startIndicesBatchingDims := []
  startIndexMap := [0]
  indexVectorDim := 1
  sliceSizes := ![1, 512]
  wf := gather_S100000x512_S199999x1_S199999x512_1_0_n_n_0_1_1512_wf
def scatter_S100000x512_S199999x1_S199999x512_1_0_0_1 : ScatterDims S100000x512 S199999x1 S199999x512 where
  updateWindowDims := [1]
  insertedWindowDims := [0]
  scatterDimsToOperandDims := [0]
  indexVectorDim := 1
  wf := scatter_S100000x512_S199999x1_S199999x512_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x512 : Shape := ⟨2, ![512, 512]⟩
abbrev S512 : Shape := ⟨1, ![512]⟩
abbrev S100000 : Shape := ⟨1, ![100000]⟩
abbrev S99999 : Shape := ⟨1, ![99999]⟩
abbrev S199999 : Shape := ⟨1, ![199999]⟩
abbrev S_ : Shape := ⟨0, ![]⟩
abbrev S199999x1 : Shape := ⟨2, ![199999, 1]⟩
abbrev S199999x512 : Shape := ⟨2, ![199999, 512]⟩
abbrev S1x512 : Shape := ⟨2, ![1, 512]⟩

abbrev nBuf : Space → Nat
  | .hbm => 120
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S100000, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S512x512, .f32⟩
  | .hbm, ⟨10, _⟩ => ⟨S100000x512, .f32⟩
  | .hbm, ⟨11, _⟩ => ⟨S512x512, .f32⟩
  | .hbm, ⟨12, _⟩ => ⟨S100000x512, .f32⟩
  | .hbm, ⟨13, _⟩ => ⟨S512x512, .f32⟩
  | .hbm, ⟨14, _⟩ => ⟨S100000x512, .f32⟩
  | .hbm, ⟨15, _⟩ => ⟨S100000, .i32⟩
  | .hbm, ⟨16, _⟩ => ⟨S99999, .i32⟩
  | .hbm, ⟨17, _⟩ => ⟨S199999, .i32⟩
  | .hbm, ⟨18, _⟩ => ⟨S99999, .i32⟩
  | .hbm, ⟨19, _⟩ => ⟨S199999, .i32⟩
  | .hbm, ⟨20, _⟩ => ⟨S_, .i32⟩
  | .hbm, ⟨21, _⟩ => ⟨S199999, .i32⟩
  | .hbm, ⟨22, _⟩ => ⟨S199999, .i1⟩
  | .hbm, ⟨23, _⟩ => ⟨S_, .i32⟩
  | .hbm, ⟨24, _⟩ => ⟨S199999, .i32⟩
  | .hbm, ⟨25, _⟩ => ⟨S199999, .i32⟩
  | .hbm, ⟨26, _⟩ => ⟨S199999, .i32⟩
  | .hbm, ⟨27, _⟩ => ⟨S199999x1, .i32⟩
  | .hbm, ⟨28, _⟩ => ⟨S199999, .i32⟩
  | .hbm, ⟨29, _⟩ => ⟨S199999, .f32⟩
  | .hbm, ⟨30, _⟩ => ⟨S_, .f32⟩
  | .hbm, ⟨31, _⟩ => ⟨S199999, .f32⟩
  | .hbm, ⟨32, _⟩ => ⟨S199999, .f32⟩
  | .hbm, ⟨33, _⟩ => ⟨S_, .f32⟩
  | .hbm, ⟨34, _⟩ => ⟨S199999, .f32⟩
  | .hbm, ⟨35, _⟩ => ⟨S199999, .f32⟩
  | .hbm, ⟨36, _⟩ => ⟨S_, .i32⟩
  | .hbm, ⟨37, _⟩ => ⟨S199999, .i32⟩
  | .hbm, ⟨38, _⟩ => ⟨S199999, .i1⟩
  | .hbm, ⟨39, _⟩ => ⟨S_, .i32⟩
  | .hbm, ⟨40, _⟩ => ⟨S199999, .i32⟩
  | .hbm, ⟨41, _⟩ => ⟨S199999, .i32⟩
  | .hbm, ⟨42, _⟩ => ⟨S199999, .i32⟩
  | .hbm, ⟨43, _⟩ => ⟨S199999x1, .i32⟩
  | .hbm, ⟨44, _⟩ => ⟨S199999, .i32⟩
  | .hbm, ⟨45, _⟩ => ⟨S_, .i32⟩
  | .hbm, ⟨46, _⟩ => ⟨S199999, .i32⟩
  | .hbm, ⟨47, _⟩ => ⟨S199999, .i32⟩
  | .hbm, ⟨48, _⟩ => ⟨S199999, .f32⟩
  | .hbm, ⟨49, _⟩ => ⟨S_, .i32⟩
  | .hbm, ⟨50, _⟩ => ⟨S199999, .i32⟩
  | .hbm, ⟨51, _⟩ => ⟨S199999, .i1⟩
  | .hbm, ⟨52, _⟩ => ⟨S_, .i32⟩
  | .hbm, ⟨53, _⟩ => ⟨S199999, .i32⟩
  | .hbm, ⟨54, _⟩ => ⟨S199999, .i32⟩
  | .hbm, ⟨55, _⟩ => ⟨S199999, .i32⟩
  | .hbm, ⟨56, _⟩ => ⟨S199999x1, .i32⟩
  | .hbm, ⟨57, _⟩ => ⟨S199999, .i32⟩
  | .hbm, ⟨58, _⟩ => ⟨S_, .i32⟩
  | .hbm, ⟨59, _⟩ => ⟨S199999, .i32⟩
  | .hbm, ⟨60, _⟩ => ⟨S199999, .i32⟩
  | .hbm, ⟨61, _⟩ => ⟨S_, .i32⟩
  | .hbm, ⟨62, _⟩ => ⟨S199999, .i32⟩
  | .hbm, ⟨63, _⟩ => ⟨S199999, .i32⟩
  | .hbm, ⟨64, _⟩ => ⟨S199999, .f32⟩
  | .hbm, ⟨65, _⟩ => ⟨S199999, .f32⟩
  | .hbm, ⟨66, _⟩ => ⟨S199999, .f32⟩
  | .hbm, ⟨67, _⟩ => ⟨S_, .f32⟩
  | .hbm, ⟨68, _⟩ => ⟨S199999, .f32⟩
  | .hbm, ⟨69, _⟩ => ⟨S199999, .f32⟩
  | .hbm, ⟨70, _⟩ => ⟨S_, .f32⟩
  | .hbm, ⟨71, _⟩ => ⟨S199999, .f32⟩
  | .hbm, ⟨72, _⟩ => ⟨S199999, .f32⟩
  | .hbm, ⟨73, _⟩ => ⟨S199999, .f32⟩
  | .hbm, ⟨74, _⟩ => ⟨S199999x1, .f32⟩
  | .hbm, ⟨75, _⟩ => ⟨S_, .i32⟩
  | .hbm, ⟨76, _⟩ => ⟨S199999, .i32⟩
  | .hbm, ⟨77, _⟩ => ⟨S199999, .i1⟩
  | .hbm, ⟨78, _⟩ => ⟨S_, .i32⟩
  | .hbm, ⟨79, _⟩ => ⟨S199999, .i32⟩
  | .hbm, ⟨80, _⟩ => ⟨S199999, .i32⟩
  | .hbm, ⟨81, _⟩ => ⟨S199999, .i32⟩
  | .hbm, ⟨82, _⟩ => ⟨S199999x1, .i32⟩
  | .hbm, ⟨83, _⟩ => ⟨S199999x512, .f32⟩
  | .hbm, ⟨84, _⟩ => ⟨S199999x512, .f32⟩
  | .hbm, ⟨85, _⟩ => ⟨S199999x512, .f32⟩
  | .hbm, ⟨86, _⟩ => ⟨S199999x1, .f32⟩
  | .hbm, ⟨87, _⟩ => ⟨S_, .i32⟩
  | .hbm, ⟨88, _⟩ => ⟨S199999, .i32⟩
  | .hbm, ⟨89, _⟩ => ⟨S199999, .i1⟩
  | .hbm, ⟨90, _⟩ => ⟨S_, .i32⟩
  | .hbm, ⟨91, _⟩ => ⟨S199999, .i32⟩
  | .hbm, ⟨92, _⟩ => ⟨S199999, .i32⟩
  | .hbm, ⟨93, _⟩ => ⟨S199999, .i32⟩
  | .hbm, ⟨94, _⟩ => ⟨S199999x1, .i32⟩
  | .hbm, ⟨95, _⟩ => ⟨S199999x512, .f32⟩
  | .hbm, ⟨96, _⟩ => ⟨S199999x512, .f32⟩
  | .hbm, ⟨97, _⟩ => ⟨S199999x512, .f32⟩
  | .hbm, ⟨98, _⟩ => ⟨S199999x512, .f32⟩
  | .hbm, ⟨99, _⟩ => ⟨S199999x1, .f32⟩
  | .hbm, ⟨100, _⟩ => ⟨S_, .i32⟩
  | .hbm, ⟨101, _⟩ => ⟨S199999, .i32⟩
  | .hbm, ⟨102, _⟩ => ⟨S199999, .i1⟩
  | .hbm, ⟨103, _⟩ => ⟨S_, .i32⟩
  | .hbm, ⟨104, _⟩ => ⟨S199999, .i32⟩
  | .hbm, ⟨105, _⟩ => ⟨S199999, .i32⟩
  | .hbm, ⟨106, _⟩ => ⟨S199999, .i32⟩
  | .hbm, ⟨107, _⟩ => ⟨S199999x1, .i32⟩
  | .hbm, ⟨108, _⟩ => ⟨S199999x512, .f32⟩
  | .hbm, ⟨109, _⟩ => ⟨S199999x512, .f32⟩
  | .hbm, ⟨110, _⟩ => ⟨S199999x512, .f32⟩
  | .hbm, ⟨111, _⟩ => ⟨S199999x512, .f32⟩
  | .hbm, ⟨112, _⟩ => ⟨S1x512, .f32⟩
  | .hbm, ⟨113, _⟩ => ⟨S199999x512, .f32⟩
  | .hbm, ⟨114, _⟩ => ⟨S199999x512, .f32⟩
  | .hbm, ⟨115, _⟩ => ⟨S_, .f32⟩
  | .hbm, ⟨116, _⟩ => ⟨S100000x512, .f32⟩
  | .hbm, ⟨117, _⟩ => ⟨S199999x1, .i32⟩
  | .hbm, ⟨118, _⟩ => ⟨S100000x512, .f32⟩
  | .hbm, ⟨119, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_c_16 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  transposes_S512x512_S512x512_1_0 : S512x512.Transposes [1, 0] S512x512
  slices_S100000_S99999_1 : S100000.Slices ![1] S99999
  concatenates_S100000_S99999_S199999_d0 : Shape.Concatenates [S100000, S99999] S199999 0
  bcast_S_S199999 : S_.BroadcastsInDim S199999 (![] : Fin 0 → Fin S199999.rank)
  bcast_S199999_S199999x1_0 : S199999.BroadcastsInDim S199999x1 (![0] : Fin 1 → Fin S199999x1.rank)
  bcast_S199999x1_S199999x512_0_1 : S199999x1.BroadcastsInDim S199999x512 (![0, 1] : Fin 2 → Fin S199999x512.rank)
  bcast_S512_S1x512_1 : S512.BroadcastsInDim S1x512 (![1] : Fin 1 → Fin S1x512.rank)
  bcast_S1x512_S199999x512_0_1 : S1x512.BroadcastsInDim S199999x512 (![0, 1] : Fin 2 → Fin S199999x512.rank)
  bcast_S_S100000x512 : S_.BroadcastsInDim S100000x512 (![] : Fin 0 → Fin S100000x512.rank)
  dot_S100000x512_S512x512_S100000x512_1_0_0_1_n_n_wf : DotDims.WF S100000x512 S512x512 S100000x512 [1] [0] [0] [1] [] []
  gather_S100000_S199999x1_S199999_n_0_n_n_0_1_1_wf : GatherDims.WF S100000 S199999x1 S199999 [] [0] [] [0] [] 1 ![1]
  gather_S100000x512_S199999x1_S199999x512_1_0_n_n_0_1_1512_wf : GatherDims.WF S100000x512 S199999x1 S199999x512 [1] [0] [] [0] [] 1 ![1, 512]
  scatter_S100000x512_S199999x1_S199999x512_1_0_0_1_wf : ScatterDims.WF S100000x512 S199999x1 S199999x512 [1] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def gather_S100000_S199999x1_S199999_n_0_n_n_0_1_1 : GatherDims S100000 S199999x1 S199999 where
  offsetDims := []
  collapsedSliceDims := [0]
  operandBatchingDims := []
  startIndicesBatchingDims := []
  startIndexMap := [0]
  indexVectorDim := 1
  sliceSizes := ![1]
  wf := gather_S100000_S199999x1_S199999_n_0_n_n_0_1_1_wf
def gather_S100000x512_S199999x1_S199999x512_1_0_n_n_0_1_1512 : GatherDims S100000x512 S199999x1 S199999x512 where
  offsetDims := [1]
  collapsedSliceDims := [0]
  operandBatchingDims := []
  startIndicesBatchingDims := []
  startIndexMap := [0]
  indexVectorDim := 1
  sliceSizes := ![1, 512]
  wf := gather_S100000x512_S199999x1_S199999x512_1_0_n_n_0_1_1512_wf
def scatter_S100000x512_S199999x1_S199999x512_1_0_0_1 : ScatterDims S100000x512 S199999x1 S199999x512 where
  updateWindowDims := [1]
  insertedWindowDims := [0]
  scatterDimsToOperandDims := [0]
  indexVectorDim := 1
  wf := scatter_S100000x512_S199999x1_S199999x512_1_0_0_1_wf

class Facts : Prop extends Facts₀ where

variable [Facts]
-- ==== Proof.LibWrittenList.lean ====
/-
  Which buffers a stretch of host operations leaves alone, decided in ONE pass per stretch.

  Each operation of a straight-line stretch writes its own result buffer and nothing else.  If every operation's set
  of writes lies in the image of one literal LIST of references — one membership per operation — then a reference
  outside the list is written by no operation of the stretch, so the fold of the stretch over a memory, read at that
  reference, is the memory there.  "Outside the list" is a decidable statement about references, and the same list
  serves every buffer one asks about (a program's arguments, a pipeline's arrays): a stretch of n operations costs n
  memberships once, not n inequalities per buffer.
-/
import Idealize.ShloMosaic.Lib.StableHlo.Run

namespace Cert.LibWrittenList

open Idealize.ShloMosaic

variable {τ : Topo} {sig : RefSig} {Val : EltTy → Type}

/-- A one-buffer set of writes lies in the image of a list that has the buffer. -/
theorem singleton_sub {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.mpr (List.mem_map.mpr ⟨y, h, rfl⟩)

/-- A reference outside a list that holds every write of a stretch is written by no operation of the stretch. -/
theorem not_written_of {ops : List (HloOp τ sig Val)} {W : List (Ref sig .tc)}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Closes `ops.Forall fun op => op.writes ⊆ (W.map (Proc.devRef .tc)).toFinset` for a literal stretch `ops` of the
    library's host operations and a literal list `W` holding each operation's result reference. -/
macro "writes_within_list" : tactic =>
  `(tactic| (simp only [List.Forall, StableHlo.nullary_writes, StableHlo.unary_writes, StableHlo.binary_writes,
               StableHlo.ternary_writes, StableHlo.quaternary_writes, StableHlo.reshape_writes, StableHlo.binaryIndexed_writes,
               StableHlo.nary_writes, StableHlo.unaryIndexed_writes]
             repeat' apply And.intro
             all_goals exact Cert.LibWrittenList.singleton_sub (by decide)))

end Cert.LibWrittenList
-- ==== Proof.HostLinesBits.lean ====
/-
  The host lines around the one matrix-product region of this program.  Before the region a single line
  stacks the three weight matrices; after it, two stretches of lines slice the product in three, build the
  edge list and its three coefficients, combine the gathered rows, scatter-add them and take tanh.  Every line
  writes only its own result buffer, and none of those is an argument of the program or an array the region
  stages: so the arguments and the region's arrays come out of the lines as they went in.
-/
import proofs.«167196_j88227218194540_1_alg».proof.Proof.Gen.Kernel.Launch
import proofs.«167196_j88227218194540_1_alg».proof.Proof.Gen.Kernel.Points
import Idealize.ShloMosaic.Lib.Pipeline.FrameBody
import Idealize.ShloMosaic.Lib.Pipeline.FrameSuffix
import Idealize.ShloMosaic.Lib.StableHlo.Run
import proofs.«167196_j88227218194540_1_alg».proof.Proof.LibWrittenList

set_option maxRecDepth 16384

noncomputable section

namespace Cert.Kernel.HostLines

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.LibWrittenList

variable {F : FTy → Type} [FloatOps F]

/-! ## What each stretch writes -/

/-- The result buffers of the first stretch after the region, in order. -/
abbrev written1 : List (Ref sig .tc) :=
  [main_v2, main_v3, main_v4, main_v5, main_v6, main_v7, main_v8, main_v9, main_c, main_v10, main_v11, main_c_0, main_v12, main_v13, main_v14, main_v15, main_v16, main_v17, main_cst, main_v18, main_v19, main_cst_1, main_v20, main_v21, main_c_2, main_v22, main_v23, main_c_3, main_v24, main_v25, main_v26, main_v27, main_v28, main_c_4, main_v29, main_v30, main_v31, main_c_5, main_v32, main_v33, main_c_6, main_v34, main_v35, main_v36, main_v37, main_v38, main_c_7, main_v39, main_v40, main_c_8, main_v41, main_v42, main_v43, main_v44, main_v45, main_cst_9, main_v46, main_v47]

/-- The result buffers of the second stretch after the region, in order. -/
abbrev written2 : List (Ref sig .tc) :=
  [main_cst_10, main_v48, main_v49, main_v50, main_v51, main_c_11, main_v52, main_v53, main_c_12, main_v54, main_v55, main_v56, main_v57, main_v58, main_v59, main_v60, main_v61, main_c_13, main_v62, main_v63, main_c_14, main_v64, main_v65, main_v66, main_v67, main_v68, main_v69, main_v70, main_v71, main_v72, main_c_15, main_v73, main_v74, main_c_16, main_v75, main_v76, main_v77, main_v78, main_v79, main_v80, main_v81, main_v82, main_v83, main_v84, main_v85, main_cst_17, main_v86, main_v87, main_v88, main_v89]

theorem lines0_writes : (main_part0_ops0 : List (HloOp τ sig (Elt F))).Forall fun op =>
    op.writes ⊆ (([main_v0] : List (Ref sig .tc)).map (Proc.devRef (τ := τ) .tc)).toFinset := by
  writes_within_list

theorem lines1_writes : (main_part0_ops1 : List (HloOp τ sig (Elt F))).Forall fun op =>
    op.writes ⊆ (written1.map (Proc.devRef (τ := τ) .tc)).toFinset := by
  writes_within_list

theorem lines2_writes : (main_part1_ops0 : List (HloOp τ sig (Elt F))).Forall fun op =>
    op.writes ⊆ (written2.map (Proc.devRef (τ := τ) .tc)).toFinset := by
  writes_within_list

/-- No line allocates. -/
theorem lines0_fresh : (main_part0_ops0 : List (HloOp τ sig (Elt F))).Forall fun op => op.fresh = ∅ := by
  simp only [List.Forall]; repeat' constructor
theorem lines1_fresh : (main_part0_ops1 : List (HloOp τ sig (Elt F))).Forall fun op => op.fresh = ∅ := by
  simp only [List.Forall]; repeat' constructor
theorem lines2_fresh : (main_part1_ops0 : List (HloOp τ sig (Elt F))).Forall fun op => op.fresh = ∅ := by
  simp only [List.Forall]; repeat' constructor

/-! ## Three facts about the lines after the region: where they reach, that they allocate nothing, what they leave alone -/

/-- They touch only unscoped TensorCore buffers: the region's arrays or buffers that bypass it. -/
theorem after_sub : ∀ ops ∈ ([main_part0_ops1, main_part1_ops0] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp main_part0_ops1_sub) op hop)
  · exact Pipeline.sub_ucRefs op ((List.forall_iff_forall_mem.mp main_part1_ops0_sub) op hop)

theorem after_fresh : ∀ ops ∈ ([main_part0_ops1, main_part1_ops0] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp lines1_fresh) op hop
  · exact (List.forall_iff_forall_mem.mp lines2_fresh) op hop

/-- They write none of the region's three arrays. -/
theorem after_keeps : ∀ ops ∈ ([main_part0_ops1, main_part1_ops0] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact not_written_of lines1_writes ((by decide : ∀ w, Pipeline.arrRef spec0 w ∉ written1) w) op hop
  · exact not_written_of lines2_writes ((by decide : ∀ w, Pipeline.arrRef spec0 w ∉ written2) w) op hop

end Cert.Kernel.HostLines

end
-- ==== Proof.AroundBits.lean ====
/-
  The program's buffers as the matrix-product region finds them (the launch contents after the one line that
  stacks the weights) and as the program leaves them: @main is that line, the region, and the lines after it.
-/
import proofs.«167196_j88227218194540_1_alg».proof.Proof.HostLinesBits

set_option maxRecDepth 16384

noncomputable section

namespace Cert.Kernel.HostLines

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.LibWrittenList

variable {F : FTy → Type} [FloatOps F]

variable (m : (ℓ : Loc nD τ sig) → Buf (Elt F) ℓ)

/-- Core `c`'s buffer contents when the region is entered: the launch contents after the stacking line. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

set_option maxHeartbeats 40000000 in  -- the two long stretches of lines are traversed whole
/-- @main as its items: the stacking line, the region, the two stretches after it. -/
theorem main_items (c : Dev nD) : main (F := F) c = Pipeline.chain (([main_part0_ops0].map StableHlo.seq)
      ++ [Prog.lift (.customCall (Pipeline.entry 0) ())] ++ ([main_part0_ops1, main_part1_ops0].map StableHlo.seq)) :=
  main_chain_windows c

set_option maxHeartbeats 40000000 in  -- the two long stretches of lines are traversed whole
/-- @main is the stacking line, the region, then the two stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0]) :=
  Pipeline.hmain_around cfgs 0 defs₀ 𝒱₀ m main [main_part0_ops0] [main_part0_ops1, main_part1_ops0]
    (by simp only [List.Forall]; exact main_part0_ops0_sub)
    (by simp only [List.Forall]; exact lines0_fresh) main_items

/-- A buffer other than the stacked weights enters the region as launched. -/
theorem V_of_not_stacked (c : Dev nD) (r : Ref sig .tc) (hr : r ∉ ([main_v0] : List (Ref sig .tc))) :
    V m c r = m ((c : Thread nD τ).loc r) :=
  StableHlo.after_of_forall_not_mem (b := Proc.devRef .tc r) _ _ (by
    simp only [List.flatten_cons, List.flatten_nil, List.append_nil]
    exact not_written_of lines0_writes hr)

/-- A buffer that no line writes and that is none of the region's arrays ends as launched. -/
theorem kept_of_not_written (dats : (p : Fin 1) → (c : Dev nD) → Dat τ (Elt F) Unit ℕ (UR sig nD τ) ℕ (cfgs p) c) (c : Dev nD)
    (r : Ref sig .tc) (h0 : r ∉ ([main_v0] : List (Ref sig .tc))) (h1 : r ∉ written1) (h2 : r ∉ written2)
    (ha : ∀ w, Pipeline.arrRef spec0 w ≠ r) :
    Pipeline.afterTail₀ cfgs dats 0 (V0 m) [main_part0_ops1, main_part1_ops0] c r = m ((c : Thread nD τ).loc r) := by
  unfold Pipeline.afterTail₀
  have hnw : ∀ op ∈ List.flatten [(main_part0_ops1 : List (HloOp τ sig (Elt F))), main_part1_ops0], Proc.devRef (τ := τ) .tc r ∉ op.writes := by
    intro op hop
    simp only [List.flatten_cons, List.flatten_nil, List.append_nil, List.mem_append] at hop
    rcases hop with hop | hop
    · exact not_written_of lines1_writes h1 op hop
    · exact not_written_of lines2_writes h2 op hop
  rw [StableHlo.after_of_forall_not_mem (b := Proc.devRef .tc r) _ _ hnw,
    Pipeline.withArrays_of_ne _ c (V0 m c) _ r ha]
  exact V_of_not_stacked m c r h0

end Cert.Kernel.HostLines

end
-- ==== Proof.RegionBits.lean ====
/-
  The matrix-product region, one grid point at a time, and the program's run around it.
  At grid point t the body reads its two input blocks whole — rows 1000·t … 1000·t+999 of the node features, and
  the stacked weights, which stay resident over the grid — forms their product contracted over the feature
  axis into a zero accumulator, and stores it over the whole output block; it keeps nothing between points.
  So after the body the output's staging buffer holds the one stored piece, and the inputs' hold their blocks.
-/
import proofs.«167196_j88227218194540_1_alg».proof.Proof.AroundBits
import proofs.«167196_j88227218194540_1_alg».proof.Proof.Gen.Kernel.Skeleton
import Idealize.ShloMosaic.Lib.Ring
import Idealize.ShloMosaic.Lib.Tactic

set_option maxRecDepth 16384

noncomputable section

namespace Cert.Kernel.Region

open Cert.Kernel Cert.Kernel.Gen Cert.Kernel.HostLines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The features' staging buffer holds the point's block of rows when the body starts, for any proof data over
    the region-entry arrays whose body leaves that block in place. -/
theorem before_rows {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer holds the stacked weights at every point, fetched there (the first) or not. -/
theorem before_weights {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's buffer -/

/-- The whole of each staging buffer: what the body's two loads read and its one store covers. -/
abbrev rowsAll : Rect S1000x512 := Rect.unit (s := S1000x512) ![0, 0] S1000x512.size inb_S1000x512_S1000x512_0_0
abbrev weightsAll : Rect S1536x512 := Rect.unit (s := S1536x512) ![0, 0] S1536x512.size inb_S1536x512_S1536x512_0_0
abbrev outAll : Rect S1000x1536 := Rect.unit (s := S1000x1536) ![0, 0] S1000x1536.size inb_S1000x1536_S1000x1536_0_0

/-- The output's staging buffer after the body, from the two input blocks: its one store, the product. -/
def outBlock (x0 : Vec F S1000x512 .f32) (x1 : Vec F S1536x512 .f32) : Vec F S1000x1536 .f32 :=
  View.canon [⟨outAll, k0_pay1 (View.ld x0 rowsAll) (View.ld x1 weightsAll)⟩]

/-- The one store covers the buffer. -/
theorem cover_out (p0 : Vec F S1000x1536 .f32) (y : S1000x1536.Idx) :
    ∃ pc ∈ ([⟨outAll, p0⟩] : List (View.Piece (Elt F) S1000x1536 .f32)), y ∈ pc.1.set :=
  View.cover_of_tiled [⟨outAll, p0⟩] S1000x1536.size (by rfl) y

/-! ## The body's triple -/

set_option maxHeartbeats 1000000 in
/-- The body on whole staging memrefs — the inputs' at contents `x0`, `x1`, the output's at anything — runs to
    the continuation holding the inputs' as they were and the output's at `outBlock x0 x1`. -/
theorem sound_kernel (c : Dev nD) (E : Set ℕ) (i : grid0.Coords)
    (arg1 : Memref sig .tc .vmem S1000x512 .f32) (harg1 : arg1.IsWhole)
    (arg2 : Memref sig .tc .vmem S1536x512 .f32) (harg2 : arg2.IsWhole)
    (arg3 : Memref sig .tc .vmem S1000x1536 .f32) (harg3 : arg3.IsWhole)
    (x0 : Vec F S1000x512 .f32) (x1 : Vec F S1536x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__tri_matmul_kernel i arg1 harg1 arg2 harg2 arg3 harg3) K := by
  simp only [cc0__tri_matmul_kernel_eq_skeleton]; unfold cc0__tri_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them; after the body at point
    `t` each input's buffer at its block and the output's at the product of the two blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before_rows m (dats m 0 c) (A_eq m c 0) (after_rows m c) t d
theorem before1 (c : Dev nD) (t : Fin cfg0.N) (d) : (dats m 0 c).before 1 t d = iblk m c 1 t :=
  before_weights m (dats m 0 c) (A_eq m c 1) (after_weights m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after_rows, after_weights, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in  -- the two long stretches of lines after the region are traversed whole
set_option backward.isDefEq.respectTransparency.types false in
/-- Every weakly fair execution of @main terminates, and every final state has each array of the pipeline at what
    the proof data say and every other unscoped buffer as the lines after the region leave it. -/
theorem run_main : θ_run defs (onTc (τ := τ) (main (F := F))) (s₀ m ρ)
    (Pipeline.FramePost cfgs (dats m) 0 (Pipeline.afterTail₀ cfgs (dats m) 0 (V0 m) [main_part0_ops1, main_part1_ops0])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [main_part0_ops1, main_part1_ops0]) (hsub := after_sub) (hfresh := after_fresh) (hkeep := after_keeps)
    (hmain := hmain m Variants.none) (hA := A_eq m) (hΦ := fun _ _ => rfl)

set_option maxHeartbeats 40000000 in  -- the run's post names the two long stretches
/-- The program terminates without a fault and leaves its nine argument arrays as launched: the features are an input
    the region stages, so they end at their region-entry contents; the other eight bypass the region and no line
    after it writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).1 0).trans (((dats m 0 c).arrAt_in 0 rfl _).trans ((A_eq m c 0).trans (V_of_not_stacked m c main_arg0 (by decide)))),
     ((h c).2 main_arg1 (Pipeline.mem_restRefs_of main_arg1 (by decide) (by decide))).trans
        (kept_of_not_written m (dats m) c main_arg1 (by decide) (by decide) (by decide) (by decide)),
     ((h c).2 main_arg2 (Pipeline.mem_restRefs_of main_arg2 (by decide) (by decide))).trans
        (kept_of_not_written m (dats m) c main_arg2 (by decide) (by decide) (by decide) (by decide)),
     ((h c).2 main_arg3 (Pipeline.mem_restRefs_of main_arg3 (by decide) (by decide))).trans
        (kept_of_not_written m (dats m) c main_arg3 (by decide) (by decide) (by decide) (by decide)),
     ((h c).2 main_arg4 (Pipeline.mem_restRefs_of main_arg4 (by decide) (by decide))).trans
        (kept_of_not_written m (dats m) c main_arg4 (by decide) (by decide) (by decide) (by decide)),
     ((h c).2 main_arg5 (Pipeline.mem_restRefs_of main_arg5 (by decide) (by decide))).trans
        (kept_of_not_written m (dats m) c main_arg5 (by decide) (by decide) (by decide) (by decide)),
     ((h c).2 main_arg6 (Pipeline.mem_restRefs_of main_arg6 (by decide) (by decide))).trans
        (kept_of_not_written m (dats m) c main_arg6 (by decide) (by decide) (by decide) (by decide)),
     ((h c).2 main_arg7 (Pipeline.mem_restRefs_of main_arg7 (by decide) (by decide))).trans
        (kept_of_not_written m (dats m) c main_arg7 (by decide) (by decide) (by decide) (by decide)),
     ((h c).2 main_arg8 (Pipeline.mem_restRefs_of main_arg8 (by decide) (by decide))).trans
        (kept_of_not_written m (dats m) c main_arg8 (by decide) (by decide) (by decide) (by decide))⟩)
    (run_main m ρ)

end Cert.Kernel.Region

end
-- ==== Proof.HostLinesIdeal.lean ====
/-
  The host lines around the one matrix-product region of this program.  Before the region a single line
  stacks the three weight matrices; after it, two stretches of lines slice the product in three, build the
  edge list and its three coefficients, combine the gathered rows, scatter-add them and take tanh.  Every line
  writes only its own result buffer, and none of those is an argument of the program or an array the region
  stages: so the arguments and the region's arrays come out of the lines as they went in.
-/
import proofs.«167196_j88227218194540_1_alg».proof.Proof.Gen.KernelIdeal.Launch
import proofs.«167196_j88227218194540_1_alg».proof.Proof.Gen.KernelIdeal.Points
import Idealize.ShloMosaic.Lib.Pipeline.FrameBody
import Idealize.ShloMosaic.Lib.Pipeline.FrameSuffix
import Idealize.ShloMosaic.Lib.StableHlo.Run
import proofs.«167196_j88227218194540_1_alg».proof.Proof.LibWrittenList

set_option maxRecDepth 16384

noncomputable section

namespace Cert.KernelIdeal.HostLines

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.LibWrittenList

variable {F : FTy → Type} [FloatOps F]

/-! ## What each stretch writes -/

/-- The result buffers of the first stretch after the region, in order. -/
abbrev written1 : List (Ref sig .tc) :=
  [main_v2, main_v3, main_v4, main_v5, main_v6, main_v7, main_v8, main_v9, main_c, main_v10, main_v11, main_c_0, main_v12, main_v13, main_v14, main_v15, main_v16, main_v17, main_cst, main_v18, main_v19, main_cst_1, main_v20, main_v21, main_c_2, main_v22, main_v23, main_c_3, main_v24, main_v25, main_v26, main_v27, main_v28, main_c_4, main_v29, main_v30, main_v31, main_c_5, main_v32, main_v33, main_c_6, main_v34, main_v35, main_v36, main_v37, main_v38, main_c_7, main_v39, main_v40, main_c_8, main_v41, main_v42, main_v43, main_v44, main_v45, main_cst_9, main_v46, main_v47]

/-- The result buffers of the second stretch after the region, in order. -/
abbrev written2 : List (Ref sig .tc) :=
  [main_cst_10, main_v48, main_v49, main_v50, main_v51, main_c_11, main_v52, main_v53, main_c_12, main_v54, main_v55, main_v56, main_v57, main_v58, main_v59, main_v60, main_v61, main_c_13, main_v62, main_v63, main_c_14, main_v64, main_v65, main_v66, main_v67, main_v68, main_v69, main_v70, main_v71, main_v72, main_c_15, main_v73, main_v74, main_c_16, main_v75, main_v76, main_v77, main_v78, main_v79, main_v80, main_v81, main_v82, main_v83, main_v84, main_v85, main_cst_17, main_v86, main_v87, main_v88, main_v89]

theorem lines0_writes : (main_part0_ops0 : List (HloOp τ sig (Elt F))).Forall fun op =>
    op.writes ⊆ (([main_v0] : List (Ref sig .tc)).map (Proc.devRef (τ := τ) .tc)).toFinset := by
  writes_within_list

theorem lines1_writes : (main_part0_ops1 : List (HloOp τ sig (Elt F))).Forall fun op =>
    op.writes ⊆ (written1.map (Proc.devRef (τ := τ) .tc)).toFinset := by
  writes_within_list

theorem lines2_writes : (main_part1_ops0 : List (HloOp τ sig (Elt F))).Forall fun op =>
    op.writes ⊆ (written2.map (Proc.devRef (τ := τ) .tc)).toFinset := by
  writes_within_list

/-- No line allocates. -/
theorem lines0_fresh : (main_part0_ops0 : List (HloOp τ sig (Elt F))).Forall fun op => op.fresh = ∅ := by
  simp only [List.Forall]; repeat' constructor
theorem lines1_fresh : (main_part0_ops1 : List (HloOp τ sig (Elt F))).Forall fun op => op.fresh = ∅ := by
  simp only [List.Forall]; repeat' constructor
theorem lines2_fresh : (main_part1_ops0 : List (HloOp τ sig (Elt F))).Forall fun op => op.fresh = ∅ := by
  simp only [List.Forall]; repeat' constructor

/-! ## Three facts about the lines after the region: where they reach, that they allocate nothing, what they leave alone -/

/-- They touch only unscoped TensorCore buffers: the region's arrays or buffers that bypass it. -/
theorem after_sub : ∀ ops ∈ ([main_part0_ops1, main_part1_ops0] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp main_part0_ops1_sub) op hop)
  · exact Pipeline.sub_ucRefs op ((List.forall_iff_forall_mem.mp main_part1_ops0_sub) op hop)

theorem after_fresh : ∀ ops ∈ ([main_part0_ops1, main_part1_ops0] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp lines1_fresh) op hop
  · exact (List.forall_iff_forall_mem.mp lines2_fresh) op hop

/-- They write none of the region's three arrays. -/
theorem after_keeps : ∀ ops ∈ ([main_part0_ops1, main_part1_ops0] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · exact not_written_of lines1_writes ((by decide : ∀ w, Pipeline.arrRef spec0 w ∉ written1) w) op hop
  · exact not_written_of lines2_writes ((by decide : ∀ w, Pipeline.arrRef spec0 w ∉ written2) w) op hop

end Cert.KernelIdeal.HostLines

end
-- ==== Proof.AroundIdeal.lean ====
/-
  The program's buffers as the matrix-product region finds them (the launch contents after the one line that
  stacks the weights) and as the program leaves them: @main is that line, the region, and the lines after it.
-/
import proofs.«167196_j88227218194540_1_alg».proof.Proof.HostLinesIdeal

set_option maxRecDepth 16384

noncomputable section

namespace Cert.KernelIdeal.HostLines

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.LibWrittenList

variable {F : FTy → Type} [FloatOps F]

variable (m : (ℓ : Loc nD τ sig) → Buf (Elt F) ℓ)

/-- Core `c`'s buffer contents when the region is entered: the launch contents after the stacking line. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

set_option maxHeartbeats 40000000 in  -- the two long stretches of lines are traversed whole
/-- @main as its items: the stacking line, the region, the two stretches after it. -/
theorem main_items (c : Dev nD) : main (F := F) c = Pipeline.chain (([main_part0_ops0].map StableHlo.seq)
      ++ [Prog.lift (.customCall (Pipeline.entry 0) ())] ++ ([main_part0_ops1, main_part1_ops0].map StableHlo.seq)) :=
  main_chain_windows c

set_option maxHeartbeats 40000000 in  -- the two long stretches of lines are traversed whole
/-- @main is the stacking line, the region, then the two stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq main_part0_ops1, StableHlo.seq main_part1_ops0]) :=
  Pipeline.hmain_around cfgs 0 defs₀ 𝒱₀ m main [main_part0_ops0] [main_part0_ops1, main_part1_ops0]
    (by simp only [List.Forall]; exact main_part0_ops0_sub)
    (by simp only [List.Forall]; exact lines0_fresh) main_items

/-- A buffer other than the stacked weights enters the region as launched. -/
theorem V_of_not_stacked (c : Dev nD) (r : Ref sig .tc) (hr : r ∉ ([main_v0] : List (Ref sig .tc))) :
    V m c r = m ((c : Thread nD τ).loc r) :=
  StableHlo.after_of_forall_not_mem (b := Proc.devRef .tc r) _ _ (by
    simp only [List.flatten_cons, List.flatten_nil, List.append_nil]
    exact not_written_of lines0_writes hr)

/-- A buffer that no line writes and that is none of the region's arrays ends as launched. -/
theorem kept_of_not_written (dats : (p : Fin 1) → (c : Dev nD) → Dat τ (Elt F) Unit ℕ (UR sig nD τ) ℕ (cfgs p) c) (c : Dev nD)
    (r : Ref sig .tc) (h0 : r ∉ ([main_v0] : List (Ref sig .tc))) (h1 : r ∉ written1) (h2 : r ∉ written2)
    (ha : ∀ w, Pipeline.arrRef spec0 w ≠ r) :
    Pipeline.afterTail₀ cfgs dats 0 (V0 m) [main_part0_ops1, main_part1_ops0] c r = m ((c : Thread nD τ).loc r) := by
  unfold Pipeline.afterTail₀
  have hnw : ∀ op ∈ List.flatten [(main_part0_ops1 : List (HloOp τ sig (Elt F))), main_part1_ops0], Proc.devRef (τ := τ) .tc r ∉ op.writes := by
    intro op hop
    simp only [List.flatten_cons, List.flatten_nil, List.append_nil, List.mem_append] at hop
    rcases hop with hop | hop
    · exact not_written_of lines1_writes h1 op hop
    · exact not_written_of lines2_writes h2 op hop
  rw [StableHlo.after_of_forall_not_mem (b := Proc.devRef .tc r) _ _ hnw,
    Pipeline.withArrays_of_ne _ c (V0 m c) _ r ha]
  exact V_of_not_stacked m c r h0

end Cert.KernelIdeal.HostLines

end
-- ==== Proof.RegionIdeal.lean ====
/-
  The matrix-product region, one grid point at a time, and the program's run around it.
  At grid point t the body reads its two input blocks whole — rows 1000·t … 1000·t+999 of the node features, and
  the stacked weights, which stay resident over the grid — forms their product contracted over the feature
  axis into a zero accumulator, and stores it over the whole output block; it keeps nothing between points.
  So after the body the output's staging buffer holds the one stored piece, and the inputs' hold their blocks.
-/
import proofs.«167196_j88227218194540_1_alg».proof.Proof.AroundIdeal
import proofs.«167196_j88227218194540_1_alg».proof.Proof.Gen.KernelIdeal.Skeleton
import Idealize.ShloMosaic.Lib.Ring
import Idealize.ShloMosaic.Lib.Tactic

set_option maxRecDepth 16384

noncomputable section

namespace Cert.KernelIdeal.Region

open Cert.KernelIdeal Cert.KernelIdeal.Gen Cert.KernelIdeal.HostLines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The features' staging buffer holds the point's block of rows when the body starts, for any proof data over
    the region-entry arrays whose body leaves that block in place. -/
theorem before_rows {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging buffer holds the stacked weights at every point, fetched there (the first) or not. -/
theorem before_weights {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output's buffer -/

/-- The whole of each staging buffer: what the body's two loads read and its one store covers. -/
abbrev rowsAll : Rect S1000x512 := Rect.unit (s := S1000x512) ![0, 0] S1000x512.size inb_S1000x512_S1000x512_0_0
abbrev weightsAll : Rect S1536x512 := Rect.unit (s := S1536x512) ![0, 0] S1536x512.size inb_S1536x512_S1536x512_0_0
abbrev outAll : Rect S1000x1536 := Rect.unit (s := S1000x1536) ![0, 0] S1000x1536.size inb_S1000x1536_S1000x1536_0_0

/-- The output's staging buffer after the body, from the two input blocks: its one store, the product. -/
def outBlock (x0 : Vec F S1000x512 .f32) (x1 : Vec F S1536x512 .f32) : Vec F S1000x1536 .f32 :=
  View.canon [⟨outAll, k0_pay1 (View.ld x0 rowsAll) (View.ld x1 weightsAll)⟩]

/-- The one store covers the buffer. -/
theorem cover_out (p0 : Vec F S1000x1536 .f32) (y : S1000x1536.Idx) :
    ∃ pc ∈ ([⟨outAll, p0⟩] : List (View.Piece (Elt F) S1000x1536 .f32)), y ∈ pc.1.set :=
  View.cover_of_tiled [⟨outAll, p0⟩] S1000x1536.size (by rfl) y

/-! ## The body's triple -/

set_option maxHeartbeats 1000000 in
/-- The body on whole staging memrefs — the inputs' at contents `x0`, `x1`, the output's at anything — runs to
    the continuation holding the inputs' as they were and the output's at `outBlock x0 x1`. -/
theorem sound_kernel (c : Dev nD) (E : Set ℕ) (i : grid0.Coords)
    (arg1 : Memref sig .tc .vmem S1000x512 .f32) (harg1 : arg1.IsWhole)
    (arg2 : Memref sig .tc .vmem S1536x512 .f32) (harg2 : arg2.IsWhole)
    (arg3 : Memref sig .tc .vmem S1000x1536 .f32) (harg3 : arg3.IsWhole)
    (x0 : Vec F S1000x512 .f32) (x1 : Vec F S1536x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__tri_matmul_kernel i arg1 harg1 arg2 harg2 arg3 harg3) K := by
  simp only [cc0__tri_matmul_kernel_eq_skeleton]; unfold cc0__tri_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them; after the body at point
    `t` each input's buffer at its block and the output's at the product of the two blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before_rows m (dats m 0 c) (A_eq m c 0) (after_rows m c) t d
theorem before1 (c : Dev nD) (t : Fin cfg0.N) (d) : (dats m 0 c).before 1 t d = iblk m c 1 t :=
  before_weights m (dats m 0 c) (A_eq m c 1) (after_weights m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after_rows, after_weights, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in  -- the two long stretches of lines after the region are traversed whole
set_option backward.isDefEq.respectTransparency.types false in
/-- Every weakly fair execution of @main terminates, and every final state has each array of the pipeline at what
    the proof data say and every other unscoped buffer as the lines after the region leave it. -/
theorem run_main : θ_run defs (onTc (τ := τ) (main (F := F))) (s₀ m ρ)
    (Pipeline.FramePost cfgs (dats m) 0 (Pipeline.afterTail₀ cfgs (dats m) 0 (V0 m) [main_part0_ops1, main_part1_ops0])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [main_part0_ops1, main_part1_ops0]) (hsub := after_sub) (hfresh := after_fresh) (hkeep := after_keeps)
    (hmain := hmain m Variants.none) (hA := A_eq m) (hΦ := fun _ _ => rfl)

set_option maxHeartbeats 40000000 in  -- the run's post names the two long stretches
/-- The program terminates without a fault and leaves its nine argument arrays as launched: the features are an input
    the region stages, so they end at their region-entry contents; the other eight bypass the region and no line
    after it writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).1 0).trans (((dats m 0 c).arrAt_in 0 rfl _).trans ((A_eq m c 0).trans (V_of_not_stacked m c main_arg0 (by decide)))),
     ((h c).2 main_arg1 (Pipeline.mem_restRefs_of main_arg1 (by decide) (by decide))).trans
        (kept_of_not_written m (dats m) c main_arg1 (by decide) (by decide) (by decide) (by decide)),
     ((h c).2 main_arg2 (Pipeline.mem_restRefs_of main_arg2 (by decide) (by decide))).trans
        (kept_of_not_written m (dats m) c main_arg2 (by decide) (by decide) (by decide) (by decide)),
     ((h c).2 main_arg3 (Pipeline.mem_restRefs_of main_arg3 (by decide) (by decide))).trans
        (kept_of_not_written m (dats m) c main_arg3 (by decide) (by decide) (by decide) (by decide)),
     ((h c).2 main_arg4 (Pipeline.mem_restRefs_of main_arg4 (by decide) (by decide))).trans
        (kept_of_not_written m (dats m) c main_arg4 (by decide) (by decide) (by decide) (by decide)),
     ((h c).2 main_arg5 (Pipeline.mem_restRefs_of main_arg5 (by decide) (by decide))).trans
        (kept_of_not_written m (dats m) c main_arg5 (by decide) (by decide) (by decide) (by decide)),
     ((h c).2 main_arg6 (Pipeline.mem_restRefs_of main_arg6 (by decide) (by decide))).trans
        (kept_of_not_written m (dats m) c main_arg6 (by decide) (by decide) (by decide) (by decide)),
     ((h c).2 main_arg7 (Pipeline.mem_restRefs_of main_arg7 (by decide) (by decide))).trans
        (kept_of_not_written m (dats m) c main_arg7 (by decide) (by decide) (by decide) (by decide)),
     ((h c).2 main_arg8 (Pipeline.mem_restRefs_of main_arg8 (by decide) (by decide))).trans
        (kept_of_not_written m (dats m) c main_arg8 (by decide) (by decide) (by decide) (by decide))⟩)
    (run_main m ρ)

end Cert.KernelIdeal.Region

end
-- ==== Proof.TriProduct.lean ====
/-
  Three projections at once.  For node features x (100000 × 512) and a weight matrix w with rows of 512, the
  product of x with the transpose of w has entry (i, j) = Σ_k x[i,k] · w[j,k].  Stacking three 512 × 512 weight
  matrices along their rows gives a 1536 × 512 matrix whose row 512·c + r is row r of the c-th one, so the
  100000 × 1536 product against the stack, cut into three blocks of 512 columns, is the three products against
  the single matrices: entry (i, 512·c + j) is Σ_k x[i,k] · w_c[j,k], term by term — the same sum of the same
  products in the same order, so nothing is asked of the entries (they may be infinite).
-/
import Idealize.ShloMosaic.PureOps.Ideal.Laws
import Idealize.ShloMosaic.Lib.ValueIdx
import Idealize.ShloMosaic.Lib.Pipeline.Value

noncomputable section

open scoped BigOperators

namespace Cert.TriProduct

open Idealize.ShloMosaic Idealize.ShloMosaic.ValueIdx

abbrev Feat : Shape := ⟨2, ![100000, 512]⟩
abbrev Wt : Shape := ⟨2, ![512, 512]⟩
abbrev Stack : Shape := ⟨2, ![1536, 512]⟩
abbrev Wide : Shape := ⟨2, ![100000, 1536]⟩

/-- Features against stacked weights: entry (i, j) = Σ_k x[i,k] · w[j,k]. -/
def wide (x : Feat.Idx → EReal) (w : Stack.Idx → EReal) : Wide.Idx → EReal :=
  fun j => ∑ k : Fin 512, x (ix2 (j 0) k) * w (ix2 (j 1) k)

/-- Features against one weight matrix: entry (i, j) = Σ_k x[i,k] · w[j,k]. -/
def proj (x : Feat.Idx → EReal) (w : Wt.Idx → EReal) : Feat.Idx → EReal :=
  fun j => ∑ k : Fin 512, x (ix2 (j 0) k) * w (ix2 (j 1) k)

/-- Row `512·c + r` of the stack is row `r` of its `c`-th piece. -/
theorem stack_apply (w0 w1 w2 : Wt.Idx → EReal)
    (h : Shape.Concatenates [Wt, Wt, Wt] Stack 0)
    (c : Nat) (hc : c < 3) (wc : Wt.Idx → EReal)
    (hwc : ([⟨Wt, w0⟩, ⟨Wt, w1⟩, ⟨Wt, w2⟩] : List ((s : Shape) × (s.Idx → EReal)))[c]'hc = ⟨Wt, wc⟩)
    (r : Fin 512) (k : Fin 512) (row : Fin 1536) (hrow : 512 * c + r.val = row.val) :
    concatenate Stack 0 [⟨Wt, w0⟩, ⟨Wt, w1⟩, ⟨Wt, w2⟩] h (ix2 row k) = wc (ix2 r k) := by
  refine concatenate_apply_piece (0 : Fin Stack.rank) [⟨Wt, w0⟩, ⟨Wt, w1⟩, ⟨Wt, w2⟩] h (ix2 row k) c hc Wt wc hwc rfl (512 * c) ?_ (ix2 r k) ?_ ?_
  · match c, hc with
    | 0, _ => rfl
    | 1, _ => rfl
    | 2, _ => rfl
  · intro b hb
    match b with
    | ⟨0, _⟩ => exact absurd rfl hb
    | ⟨1, _⟩ => rfl
  · exact hrow

/-- Columns `512·c … 512·c + 511` of the wide product against the stack are the projection against piece `c`. -/
theorem slice_wide (x : Feat.Idx → EReal) (w0 w1 w2 : Wt.Idx → EReal)
    (h : Shape.Concatenates [Wt, Wt, Wt] Stack 0)
    (c : Nat) (hc : c < 3) (wc : Wt.Idx → EReal)
    (hwc : ([⟨Wt, w0⟩, ⟨Wt, w1⟩, ⟨Wt, w2⟩] : List ((s : Shape) × (s.Idx → EReal)))[c]'hc = ⟨Wt, wc⟩)
    (hs : Wide.Slices ![0, 512 * c] Feat) :
    extractStridedSlice Feat ![0, 512 * c] (wide x (concatenate Stack 0 [⟨Wt, w0⟩, ⟨Wt, w1⟩, ⟨Wt, w2⟩] h)) hs = proj x wc := by
  funext j
  have hj1 : (j 1).val < 512 := (j 1).isLt
  have hrow : 512 * c + (j 1).val < 1536 := by omega
  refine (extractStridedSlice_apply _ _ hs j (ix2 (j 0) ⟨512 * c + (j 1).val, hrow⟩) (fun a => by
    match a with
    | ⟨0, _⟩ => show (j 0).val = 0 + (j 0).val; omega
    | ⟨1, _⟩ => rfl)).trans ?_
  unfold wide proj
  refine Finset.sum_congr rfl fun k _ => ?_
  exact congrArg (x (ix2 (j 0) k) * ·) (stack_apply w0 w1 w2 h c hc wc hwc (j 1) k ⟨512 * c + (j 1).val, hrow⟩ rfl)

end Cert.TriProduct

end
-- ==== Proof.KernelValue.lean ====
/-
  The array the matrix-product region leaves, at the ideal values.  At grid point t the body stores, over the
  whole 1000 × 1536 output block, the product of rows 1000·t … 1000·t+999 of the features with the stacked
  weights, contracted over the feature axis into a zero accumulator (the change of float format is the identity
  on extended reals): entry (p, q) is Σ_k x[1000·t + p, k] · w[q, k].  That is block t of ONE whole-array
  function, the wide product of the features with the stack; the hundred blocks tile the array (row r is in
  block r / 1000), so the array ends at the wide product.
-/
import proofs.«167196_j88227218194540_1_alg».proof.Proof.RegionIdeal
import proofs.«167196_j88227218194540_1_alg».proof.Proof.TriProduct
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.KValue

open Cert.KernelIdeal Cert.KernelIdeal.Gen Cert.KernelIdeal.HostLines Cert.KernelIdeal.Region Cert.TriProduct
open Idealize.ShloMosaic Idealize.ShloMosaic.TcCoe Idealize.ShloMosaic.ValueIdx Idealize.ShloMosaic.StableHlo
open Idealize.SL.Sem
open Idealize.ShloMosaic.Pipeline (Dat)

/-! ## The body's product at an index -/

theorem dot_lhs0 (j : S1000x1536.Idx) (q : dot_S1000x512_S1536x512_S1000x1536_1_1_0_0_n_n.contr.Idx) : (dot_S1000x512_S1536x512_S1000x1536_1_1_0_0_n_n.lhsIdx j q 0).val = (j 0).val := by
  unfold DotDims.lhsIdx
  rw [dif_neg (show ¬(0 : Fin S1000x512.rank) ∈ dot_S1000x512_S1536x512_S1000x1536_1_1_0_0_n_n.lhsBatch by decide), dif_pos (show (0 : Fin S1000x512.rank) ∈ dot_S1000x512_S1536x512_S1000x1536_1_1_0_0_n_n.lhsNonContracting by decide)]
  rfl
theorem dot_lhs1 (j : S1000x1536.Idx) (q : dot_S1000x512_S1536x512_S1000x1536_1_1_0_0_n_n.contr.Idx) : (dot_S1000x512_S1536x512_S1000x1536_1_1_0_0_n_n.lhsIdx j q 1).val = (q ⟨0, by decide⟩).val :=
  dot_S1000x512_S1536x512_S1000x1536_1_1_0_0_n_n.lhsIdx_val_of_single rfl j q
theorem dot_rhs0 (j : S1000x1536.Idx) (q : dot_S1000x512_S1536x512_S1000x1536_1_1_0_0_n_n.contr.Idx) : (dot_S1000x512_S1536x512_S1000x1536_1_1_0_0_n_n.rhsIdx j q 0).val = (j 1).val := by
  unfold DotDims.rhsIdx
  rw [dif_neg (show ¬(0 : Fin S1536x512.rank) ∈ dot_S1000x512_S1536x512_S1000x1536_1_1_0_0_n_n.rhsBatch by decide), dif_pos (show (0 : Fin S1536x512.rank) ∈ dot_S1000x512_S1536x512_S1000x1536_1_1_0_0_n_n.rhsNonContracting by decide)]
  rfl
theorem dot_rhs1 (j : S1000x1536.Idx) (q : dot_S1000x512_S1536x512_S1000x1536_1_1_0_0_n_n.contr.Idx) : (dot_S1000x512_S1536x512_S1000x1536_1_1_0_0_n_n.rhsIdx j q 1).val = (q ⟨0, by decide⟩).val :=
  dot_S1000x512_S1536x512_S1000x1536_1_1_0_0_n_n.rhsIdx_val_of_single rfl j q

/-- The stored product at (p, q): row p of the features' block against row q of the weights' block. -/
theorem product_apply (x0 : Vec Ideal S1000x512 .f32) (x1 : Vec Ideal S1536x512 .f32) (j : S1000x1536.Idx) :
    k0_pay1 (F := Ideal) x0 x1 j = ∑ k : Fin 512, (x0 (ix2 (j 0) k) : EReal) * (x1 (ix2 (j 1) k) : EReal) := by
  unfold k0_pay1
  show FloatOps.matmul dot_S1000x512_S1536x512_S1000x1536_1_1_0_0_n_n none _ _ (constant S1000x1536 .f32 0x00000000#32) j = _
  rw [Ideal.matmul_constant_zero_apply, ← Equiv.sum_comp (contrEquiv1 dot_S1000x512_S1536x512_S1000x1536_1_1_0_0_n_n 512 rfl rfl).symm]
  refine Finset.sum_congr rfl fun k _ => ?_
  have hk := contrEquiv1_symm_val dot_S1000x512_S1536x512_S1000x1536_1_1_0_0_n_n 512 rfl rfl k
  have el : dot_S1000x512_S1536x512_S1000x1536_1_1_0_0_n_n.lhsIdx j ((contrEquiv1 dot_S1000x512_S1536x512_S1000x1536_1_1_0_0_n_n 512 rfl rfl).symm k) = ix2 (j 0) k := funext fun a => Fin.ext (by
    match a with
    | ⟨0, _⟩ => exact dot_lhs0 _ _
    | ⟨1, _⟩ => exact (dot_lhs1 _ _).trans hk)
  have er : dot_S1000x512_S1536x512_S1000x1536_1_1_0_0_n_n.rhsIdx j ((contrEquiv1 dot_S1000x512_S1536x512_S1000x1536_1_1_0_0_n_n 512 rfl rfl).symm k) = ix2 (j 1) k := funext fun a => Fin.ext (by
    match a with
    | ⟨0, _⟩ => exact dot_rhs0 _ _
    | ⟨1, _⟩ => exact (dot_rhs1 _ _).trans hk)
  rw [el, er]
  exact congrArg (fun z : EReal => (x0 (ix2 (j 0) k) : EReal) * z)
    (congrFun (shapeCast_self x1 shapeCasts_S1536x512_S1536x512) (ix2 (j 1) k))

/-! ## From blocks to the array -/

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: the features' and the output's blocks move down with the point, the weights' stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the wide product of the features with the stacked weights, as the region finds them. -/
theorem flushed_eq (c : Dev nD) (t : Fin cfg0.N) :
    (dats m 0 c).flushed 2 t = ((cfg0.win 2).blk t).view.read (Elt Ideal) (wide (V m c main_arg0) (V m c main_v0)) := by
  show (cfg0.win 2).cut (grid0.coords t) ((dats m 0 c).after 2 t) = _
  rw [after_out]
  unfold outBlock
  rw [View.canon_unit_zero origin]
  simp only [View.ld_unit_zero (S := S1000x512) origin, View.ld_unit_zero (S := S1536x512) origin]
  obtain ⟨e0, e1, e2, e3, e4, e5⟩ := index_maps t
  funext j
  refine (product_apply (iblk m c 0 t) (iblk m c 1 t) j).trans ?_
  show _ = wide (V m c main_arg0) (V m c main_v0) (((cfg0.win 2).blk t).view.emb j)
  unfold wide
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 512 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 1536 + 1 * (j 1).val = win0_2.index t (1 : Fin 2) * 1536 + 1 * (j 1).val; omega
    | ⟨1, _⟩ => show win0_1.index t (1 : Fin 2) * 512 + 1 * k.val = k.val; omega
  have hx : iblk m c 0 t (ix2 (j 0) k) = V m c main_arg0 (ix2 ((((cfg0.win 2).blk t).view.emb j) 0) k) := by
    show V m c main_arg0 (((cfg0.win 0).blk t).view.emb (ix2 (j 0) k)) = _
    exact congrArg (V m c main_arg0) h0
  have hw : iblk m c 1 t (ix2 (j 1) k) = V m c main_v0 (ix2 ((((cfg0.win 2).blk t).view.emb j) 1) k) := by
    show V m c main_v0 (((cfg0.win 1).blk t).view.emb (ix2 (j 1) k)) = _
    exact congrArg (V m c main_v0) h1
  exact congrArg₂ (fun a b : EReal => a * b) hx hw

/-- An index of the array is in point `t`'s block iff each coordinate is in the block's range on its axis. -/
theorem mem_block (t : Fin cfg0.N) (i : S100000x1536.Idx) :
    i ∈ ((cfg0.win 2).blk t).view.set ↔ ∀ a : Fin 2, win0_2.index t a * S1000x1536.size a ≤ (i a).val ∧ (i a).val < win0_2.index t a * S1000x1536.size a + S1000x1536.size a := by
  show i ∈ ((View.whole main_v1).slice (win0_2.rect t)).set ↔ _
  rw [View.set_slice_whole, Rect.mem_set_unit]
  exact Iff.rfl

/-- Every index is in the block of the point its row falls in. -/
theorem covered (i : S100000x1536.Idx) : ∃ t : Fin cfg0.N, (cfg0.win 2).flush t = true ∧ i ∈ ((cfg0.win 2).blk t).view.set := by
  have hi0 : (i 0).val < 100000 := (i 0).isLt
  have hi1 : (i 1).val < 1536 := (i 1).isLt
  have hN : cfg0.N = 100 := N_0
  have ht : (i 0).val / 1000 < cfg0.N := by rw [hN]; omega
  obtain ⟨e0, e1, e2, e3, e4, e5⟩ := index_maps ⟨(i 0).val / 1000, ht⟩
  have e4' : win0_2.index ⟨(i 0).val / 1000, ht⟩ (0 : Fin 2) = (i 0).val / 1000 := e4
  refine ⟨⟨(i 0).val / 1000, ht⟩, flush0_2 _, ?_⟩
  rw [mem_block]
  intro a
  match a with
  | ⟨0, _⟩ => show win0_2.index ⟨(i 0).val / 1000, ht⟩ (0 : Fin 2) * 1000 ≤ (i 0).val ∧ (i 0).val < win0_2.index ⟨(i 0).val / 1000, ht⟩ (0 : Fin 2) * 1000 + 1000; omega
  | ⟨1, _⟩ => show win0_2.index ⟨(i 0).val / 1000, ht⟩ (1 : Fin 2) * 1536 ≤ (i 1).val ∧ (i 1).val < win0_2.index ⟨(i 0).val / 1000, ht⟩ (1 : Fin 2) * 1536 + 1536; omega

/-- The region's output array after the run: the wide product. -/
theorem product_array (c : Dev nD) : (dats m 0 c).arrAt 2 cfg0.N = wide (V m c main_arg0) (V m c main_v0) :=
  (dats m 0 c).arrAt_eq_of_cover 2 _ (fun t _ => flushed_eq m c t) covered

/-! ## The stacked weights, as the region finds them -/

theorem stacked (c : Dev nD) : (V m c main_v0 : S1536x512.Idx → EReal)
    = concatenate S1536x512 0 [⟨S512x512, m ((c : Thread nD τ).loc main_arg1)⟩, ⟨S512x512, m ((c : Thread nD τ).loc main_arg2)⟩,
        ⟨S512x512, m ((c : Thread nD τ).loc main_arg3)⟩] concatenates_S512x512_S512x512_S512x512_S1536x512_d0 := by
  dsimp only [V, V0]
  simp only [List.flatten_cons, List.flatten_nil, List.append_nil]
  after_results
  rfl

end Cert.KernelIdeal.KValue

end
-- ==== Proof.TailIdeal.lean ====
/-
  What the host lines after the three projections compute, as one function of the projections `yt yl yr` (one row per
  node, for the top, left and right weights), the bias and the four integer tree arrays.

  There is one edge per node (the node hovering itself) and one more per non-root node (hovering under its parent):
  `nodes` is the hovered node of each edge, `seg` the window root whose output row the edge adds to.  Per edge,
  twc = level[seg] / 2, rwc = (1 − twc) · (pos[nodes] − 1) / max(1, sib[nodes] − 1), lwc = (1 − twc) · (1 − rwc);
  the edge contributes twc · yt[nodes] + lwc · yl[nodes] + rwc · yr[nodes] + bias to row `seg`, the rows are summed
  from zero by a scatter-add, and tanh is taken.  A negative index is wrapped by adding the number of nodes before a gather.
-/
import proofs.«167196_j88227218194540_1_alg».proof.Proof.Gen.KernelIdeal
import Idealize.ShloMosaic.PureOps.Ideal

noncomputable section

namespace Cert.KernelIdeal.Tail

open Cert.KernelIdeal Cert.KernelIdeal.Gen Idealize.ShloMosaic

/-- Node ids 0 … 99999. -/
def ids : IVec S100000 32 := iotaInDim S100000 32 0

/-- An array of node ids followed by a per-node array without its root entry: one entry per edge. -/
def perEdge (a : IVec S100000 32) : IVec S199999 32 :=
  concatenate S199999 0 [⟨S100000, ids⟩, ⟨S99999, extractStridedSlice S99999 ![1] a slices_S100000_S99999_1⟩] concatenates_S100000_S99999_S199999_d0

/-- The hovered node of each edge. -/
def nodes : IVec S199999 32 := perEdge ids

/-- The window root of each edge: the node itself, then each non-root node's parent. -/
def seg (parent : IVec S100000 32) : IVec S199999 32 := perEdge parent

/-- Start indices for a gather: a negative index wrapped by the number of nodes, as a column. -/
def wrapped (ix : IVec S199999 32) : IVec S199999x1 32 :=
  broadcastInDim S199999x1 ![0] bcast_S199999_S199999x1_0
    (select (cmpi .slt ix (broadcastInDim S199999 ![] bcast_S_S199999 (constantI S_ 32 0#32)))
      (addi ix (broadcastInDim S199999 ![] bcast_S_S199999 (constantI S_ 32 100000#32))) ix)

/-- One integer per edge, read from a per-node array at the given nodes. -/
def pick (a : IVec S100000 32) (ix : IVec S199999 32) : IVec S199999 32 :=
  Host.gather gather_S100000_S199999x1_S199999_n_0_n_n_0_1_1 a (wrapped ix)

/-- The constant 1 per edge, as a float and as an integer. -/
def oneF : FVec Ideal S199999 .f32 := broadcastInDim S199999 ![] bcast_S_S199999 (constant (F := Ideal) S_ .f32 0x3F800000#32)
def oneI : IVec S199999 32 := broadcastInDim S199999 ![] bcast_S_S199999 (constantI S_ 32 1#32)

/-- twc: the window root's level over the window depth less one. -/
def twc (parent level : IVec S100000 32) : FVec Ideal S199999 .f32 :=
  Host.divf (sitofp .f32 (pick level (seg parent)))
    (broadcastInDim S199999 ![] bcast_S_S199999 (constant (F := Ideal) S_ .f32 0x40000000#32))

/-- rwc: (1 − twc) times the hovered node's position less one over its siblings less one, at least one. -/
def rwc (parent level pos sib : IVec S100000 32) : FVec Ideal S199999 .f32 :=
  mulf (subf oneF (twc parent level))
    (Host.divf (sitofp .f32 (subi (pick pos nodes) oneI)) (sitofp .f32 (maxsi oneI (subi (pick sib nodes) oneI))))

/-- lwc: (1 − twc) · (1 − rwc). -/
def lwc (parent level pos sib : IVec S100000 32) : FVec Ideal S199999 .f32 :=
  mulf (subf oneF (twc parent level)) (subf oneF (rwc parent level pos sib))

/-- A per-edge coefficient spread along the feature axis. -/
def spread (v : FVec Ideal S199999 .f32) : FVec Ideal S199999x512 .f32 :=
  broadcastInDim S199999x512 ![0, 1] bcast_S199999x1_S199999x512_0_1 (broadcastInDim S199999x1 ![0] bcast_S199999_S199999x1_0 v)

/-- The hovered nodes' rows of a projection. -/
def rowsAt (y : FVec Ideal S100000x512 .f32) : FVec Ideal S199999x512 .f32 :=
  Host.gather gather_S100000x512_S199999x1_S199999x512_1_0_n_n_0_1_1512 y (wrapped nodes)

/-- Each edge's contribution. -/
def contrib (yt yl yr : FVec Ideal S100000x512 .f32) (bias : FVec Ideal S512 .f32) (parent level pos sib : IVec S100000 32) :
    FVec Ideal S199999x512 .f32 :=
  addf (addf (addf (mulf (spread (twc parent level)) (rowsAt yt)) (mulf (spread (lwc parent level pos sib)) (rowsAt yl)))
      (mulf (spread (rwc parent level pos sib)) (rowsAt yr)))
    (broadcastInDim S199999x512 ![0, 1] bcast_S1x512_S199999x512_0_1 (broadcastInDim S1x512 ![1] bcast_S512_S1x512_1 bias))

/-- The result: the contributions summed into their window roots' rows, then tanh. -/
def tail (yt yl yr : FVec Ideal S100000x512 .f32) (bias : FVec Ideal S512 .f32) (parent level pos sib : IVec S100000 32) :
    FVec Ideal S100000x512 .f32 :=
  Host.tanh (Host.scatterAdd scatter_S100000x512_S199999x1_S199999x512_1_0_0_1
    (broadcastInDim S100000x512 ![] bcast_S_S100000x512 (constant (F := Ideal) S_ .f32 0x00000000#32))
    (broadcastInDim S199999x1 ![0] bcast_S199999_S199999x1_0 (seg parent))
    (contrib yt yl yr bias parent level pos sib))

end Cert.KernelIdeal.Tail

end
-- ==== Proof.KernelResult.lean ====
/-
  The kernel program's result at the ideal values.  The lines after the region cut the region's array into three
  blocks of 512 columns and feed them, with the bias and the four tree arrays, to the shared tail; the region's
  array is the wide product of the features with the stacked weights, whose three blocks of columns are the three
  projections.  So the program ends with the tail of the three projections.
-/
import proofs.«167196_j88227218194540_1_alg».proof.Proof.KernelValue
import proofs.«167196_j88227218194540_1_alg».proof.Proof.TailIdeal

set_option maxRecDepth 16384

noncomputable section

namespace Cert.KernelIdeal.KValue

open Cert.KernelIdeal Cert.KernelIdeal.Gen Cert.KernelIdeal.HostLines Cert.KernelIdeal.Region Cert.KernelIdeal.Tail Cert.TriProduct
open Idealize.ShloMosaic Idealize.ShloMosaic.TcCoe Idealize.ShloMosaic.ValueIdx Idealize.ShloMosaic.StableHlo
open Idealize.SL.Sem
open Idealize.ShloMosaic.Pipeline (Dat)

set_option maxHeartbeats 40000000 in  -- one pass over the hundred and eight lines after the region
/-- From any contents `W` at the region's exit, the lines leave in the result buffer the tail of the three column
    blocks of the region's array, the bias and the tree arrays. -/
theorem lines_result (W : Valuation τ sig (Elt Ideal)) :
    StableHlo.after (List.flatten [(main_part0_ops1 : List (HloOp τ sig (Elt Ideal))), main_part1_ops0]) W (Proc.devRef .tc main_v89)
      = tail
          (extractStridedSlice S100000x512 ![0, 0] (W (Proc.devRef .tc main_v1)) slices_S100000x1536_S100000x512_0_0)
          (extractStridedSlice S100000x512 ![0, 512] (W (Proc.devRef .tc main_v1)) slices_S100000x1536_S100000x512_0_512)
          (extractStridedSlice S100000x512 ![0, 1024] (W (Proc.devRef .tc main_v1)) slices_S100000x1536_S100000x512_0_1024)
          (W (Proc.devRef .tc main_arg4)) (W (Proc.devRef .tc main_arg5)) (W (Proc.devRef .tc main_arg6)) (W (Proc.devRef .tc main_arg7)) (W (Proc.devRef .tc main_arg8)) := by
  simp only [List.flatten_cons, List.flatten_nil, List.append_nil, List.cons_append, List.nil_append]
  after_results_simp
  rfl

/-- The tail of equal arguments. -/
theorem tail_congr {yt yt' yl yl' yr yr' : FVec Ideal S100000x512 .f32} {b b' : FVec Ideal S512 .f32}
    {p p' l l' po po' s s' : IVec S100000 32}
    (h1 : yt = yt') (h2 : yl = yl') (h3 : yr = yr') (h4 : b = b') (h5 : p = p') (h6 : l = l') (h7 : po = po') (h8 : s = s') :
    tail yt yl yr b p l po s = tail yt' yl' yr' b' p' l' po' s' := by
  subst h1 h2 h3 h4 h5 h6 h7 h8; rfl

variable (m : (ℓ : Loc nD τ sig) → Buf (Elt Ideal) ℓ) (ρ : Dev nD → PrngReg)

/-- The result buffer after the program: the tail of the three projections of the features. -/
theorem result_eq (c : Dev nD) :
    Pipeline.afterTail₀ cfgs (dats m) 0 (V0 m) [main_part0_ops1, main_part1_ops0] c main_v89
      = tail (proj (m ((c : Thread nD τ).loc main_arg0)) (m ((c : Thread nD τ).loc main_arg1))) (proj (m ((c : Thread nD τ).loc main_arg0)) (m ((c : Thread nD τ).loc main_arg2))) (proj (m ((c : Thread nD τ).loc main_arg0)) (m ((c : Thread nD τ).loc main_arg3)))
          (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  refine (lines_result _).trans ?_
  have hY : Pipeline.withArrays spec0 c (V0 m c) (fun w => (dats m 0 c).arrAt w cfg0.N) (Proc.devRef .tc main_v1)
      = wide (m ((c : Thread nD τ).loc main_arg0)) (concatenate S1536x512 0 [⟨S512x512, (m ((c : Thread nD τ).loc main_arg1))⟩, ⟨S512x512, (m ((c : Thread nD τ).loc main_arg2))⟩, ⟨S512x512, (m ((c : Thread nD τ).loc main_arg3))⟩]
          concatenates_S512x512_S512x512_S512x512_S1536x512_d0) :=
    (Pipeline.withArrays_arr spec0 launch0.win.arr_inj c _ _ 2).trans ((product_array m c).trans (by
      rw [stacked, V_of_not_stacked m c main_arg0 (by decide)]))
  have keep : ∀ r : Ref sig .tc, (∀ w, Pipeline.arrRef spec0 w ≠ r) → r ∉ ([main_v0] : List (Ref sig .tc)) →
      Pipeline.withArrays spec0 c (V0 m c) (fun w => (dats m 0 c).arrAt w cfg0.N) (Proc.devRef .tc r) = m ((c : Thread nD τ).loc r) :=
    fun r ha h0 => (Pipeline.withArrays_of_ne _ c (V0 m c) _ r ha).trans (V_of_not_stacked m c r h0)
  refine tail_congr ?_ ?_ ?_ (keep main_arg4 (by decide) (by decide)) (keep main_arg5 (by decide) (by decide))
    (keep main_arg6 (by decide) (by decide)) (keep main_arg7 (by decide) (by decide)) (keep main_arg8 (by decide) (by decide))
  · exact (congrArg (fun Y => extractStridedSlice S100000x512 ![0, 0] Y slices_S100000x1536_S100000x512_0_0) hY).trans
      (slice_wide _ _ _ _ _ 0 (by decide) _ rfl _)
  · exact (congrArg (fun Y => extractStridedSlice S100000x512 ![0, 512] Y slices_S100000x1536_S100000x512_0_512) hY).trans
      (slice_wide _ _ _ _ _ 1 (by decide) _ rfl _)
  · exact (congrArg (fun Y => extractStridedSlice S100000x512 ![0, 1024] Y slices_S100000x1536_S100000x512_0_1024) hY).trans
      (slice_wide _ _ _ _ _ 2 (by decide) _ rfl _)

set_option maxHeartbeats 40000000 in  -- the run's post names the two long stretches
/-- Every weakly fair execution of the kernel program terminates with the result buffer at the tail of the three
    projections and the nine argument arrays as launched. -/
theorem run : θ_run defs (onTc (τ := τ) (main (F := Ideal))) ⟨m, fun _ => 0, ρ⟩ (fun r => ∀ c : Dev nD,
      r.2.mem ((c.tc : Thread nD τ).loc main_v89)
        = tail (proj (m ((c : Thread nD τ).loc main_arg0)) (m ((c : Thread nD τ).loc main_arg1))) (proj (m ((c : Thread nD τ).loc main_arg0)) (m ((c : Thread nD τ).loc main_arg2))) (proj (m ((c : Thread nD τ).loc main_arg0)) (m ((c : Thread nD τ).loc main_arg3)))
            (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v89 (Pipeline.mem_restRefs_of main_v89 (by decide) (by decide))).trans (result_eq m c),
     ((h c).1 0).trans (((dats m 0 c).arrAt_in 0 rfl _).trans ((A_eq m c 0).trans (V_of_not_stacked m c main_arg0 (by decide)))),
     ((h c).2 main_arg1 (Pipeline.mem_restRefs_of main_arg1 (by decide) (by decide))).trans
        (kept_of_not_written m (dats m) c main_arg1 (by decide) (by decide) (by decide) (by decide)),
     ((h c).2 main_arg2 (Pipeline.mem_restRefs_of main_arg2 (by decide) (by decide))).trans
        (kept_of_not_written m (dats m) c main_arg2 (by decide) (by decide) (by decide) (by decide)),
     ((h c).2 main_arg3 (Pipeline.mem_restRefs_of main_arg3 (by decide) (by decide))).trans
        (kept_of_not_written m (dats m) c main_arg3 (by decide) (by decide) (by decide) (by decide)),
     ((h c).2 main_arg4 (Pipeline.mem_restRefs_of main_arg4 (by decide) (by decide))).trans
        (kept_of_not_written m (dats m) c main_arg4 (by decide) (by decide) (by decide) (by decide)),
     ((h c).2 main_arg5 (Pipeline.mem_restRefs_of main_arg5 (by decide) (by decide))).trans
        (kept_of_not_written m (dats m) c main_arg5 (by decide) (by decide) (by decide) (by decide)),
     ((h c).2 main_arg6 (Pipeline.mem_restRefs_of main_arg6 (by decide) (by decide))).trans
        (kept_of_not_written m (dats m) c main_arg6 (by decide) (by decide) (by decide) (by decide)),
     ((h c).2 main_arg7 (Pipeline.mem_restRefs_of main_arg7 (by decide) (by decide))).trans
        (kept_of_not_written m (dats m) c main_arg7 (by decide) (by decide) (by decide) (by decide)),
     ((h c).2 main_arg8 (Pipeline.mem_restRefs_of main_arg8 (by decide) (by decide))).trans
        (kept_of_not_written m (dats m) c main_arg8 (by decide) (by decide) (by decide) (by decide))⟩)
    (run_main m ρ)

end Cert.KernelIdeal.KValue

end
-- ==== Proof.TailRef.lean ====
/-
  What the host lines after the three projections compute, as one function of the projections `yt yl yr` (one row per
  node, for the top, left and right weights), the bias and the four integer tree arrays.

  There is one edge per node (the node hovering itself) and one more per non-root node (hovering under its parent):
  `nodes` is the hovered node of each edge, `seg` the window root whose output row the edge adds to.  Per edge,
  twc = level[seg] / 2, rwc = (1 − twc) · (pos[nodes] − 1) / max(1, sib[nodes] − 1), lwc = (1 − twc) · (1 − rwc);
  the edge contributes twc · yt[nodes] + lwc · yl[nodes] + rwc · yr[nodes] + bias to row `seg`, the rows are summed
  from zero by a scatter-add, and tanh is taken.  A negative index is wrapped by adding the number of nodes before a gather.
-/
import proofs.«167196_j88227218194540_1_alg».proof.Proof.Gen.ReferenceIdeal
import Idealize.ShloMosaic.PureOps.Ideal

noncomputable section

namespace Cert.ReferenceIdeal.Tail

open Cert.ReferenceIdeal Cert.ReferenceIdeal.Gen Idealize.ShloMosaic

/-- Node ids 0 … 99999. -/
def ids : IVec S100000 32 := iotaInDim S100000 32 0

/-- An array of node ids followed by a per-node array without its root entry: one entry per edge. -/
def perEdge (a : IVec S100000 32) : IVec S199999 32 :=
  concatenate S199999 0 [⟨S100000, ids⟩, ⟨S99999, extractStridedSlice S99999 ![1] a slices_S100000_S99999_1⟩] concatenates_S100000_S99999_S199999_d0

/-- The hovered node of each edge. -/
def nodes : IVec S199999 32 := perEdge ids

/-- The window root of each edge: the node itself, then each non-root node's parent. -/
def seg (parent : IVec S100000 32) : IVec S199999 32 := perEdge parent

/-- Start indices for a gather: a negative index wrapped by the number of nodes, as a column. -/
def wrapped (ix : IVec S199999 32) : IVec S199999x1 32 :=
  broadcastInDim S199999x1 ![0] bcast_S199999_S199999x1_0
    (select (cmpi .slt ix (broadcastInDim S199999 ![] bcast_S_S199999 (constantI S_ 32 0#32)))
      (addi ix (broadcastInDim S199999 ![] bcast_S_S199999 (constantI S_ 32 100000#32))) ix)

/-- One integer per edge, read from a per-node array at the given nodes. -/
def pick (a : IVec S100000 32) (ix : IVec S199999 32) : IVec S199999 32 :=
  Host.gather gather_S100000_S199999x1_S199999_n_0_n_n_0_1_1 a (wrapped ix)

/-- The constant 1 per edge, as a float and as an integer. -/
def oneF : FVec Ideal S199999 .f32 := broadcastInDim S199999 ![] bcast_S_S199999 (constant (F := Ideal) S_ .f32 0x3F800000#32)
def oneI : IVec S199999 32 := broadcastInDim S199999 ![] bcast_S_S199999 (constantI S_ 32 1#32)

/-- twc: the window root's level over the window depth less one. -/
def twc (parent level : IVec S100000 32) : FVec Ideal S199999 .f32 :=
  Host.divf (sitofp .f32 (pick level (seg parent)))
    (broadcastInDim S199999 ![] bcast_S_S199999 (constant (F := Ideal) S_ .f32 0x40000000#32))

/-- rwc: (1 − twc) times the hovered node's position less one over its siblings less one, at least one. -/
def rwc (parent level pos sib : IVec S100000 32) : FVec Ideal S199999 .f32 :=
  mulf (subf oneF (twc parent level))
    (Host.divf (sitofp .f32 (subi (pick pos nodes) oneI)) (sitofp .f32 (maxsi oneI (subi (pick sib nodes) oneI))))

/-- lwc: (1 − twc) · (1 − rwc). -/
def lwc (parent level pos sib : IVec S100000 32) : FVec Ideal S199999 .f32 :=
  mulf (subf oneF (twc parent level)) (subf oneF (rwc parent level pos sib))

/-- A per-edge coefficient spread along the feature axis. -/
def spread (v : FVec Ideal S199999 .f32) : FVec Ideal S199999x512 .f32 :=
  broadcastInDim S199999x512 ![0, 1] bcast_S199999x1_S199999x512_0_1 (broadcastInDim S199999x1 ![0] bcast_S199999_S199999x1_0 v)

/-- The hovered nodes' rows of a projection. -/
def rowsAt (y : FVec Ideal S100000x512 .f32) : FVec Ideal S199999x512 .f32 :=
  Host.gather gather_S100000x512_S199999x1_S199999x512_1_0_n_n_0_1_1512 y (wrapped nodes)

/-- Each edge's contribution. -/
def contrib (yt yl yr : FVec Ideal S100000x512 .f32) (bias : FVec Ideal S512 .f32) (parent level pos sib : IVec S100000 32) :
    FVec Ideal S199999x512 .f32 :=
  addf (addf (addf (mulf (spread (twc parent level)) (rowsAt yt)) (mulf (spread (lwc parent level pos sib)) (rowsAt yl)))
      (mulf (spread (rwc parent level pos sib)) (rowsAt yr)))
    (broadcastInDim S199999x512 ![0, 1] bcast_S1x512_S199999x512_0_1 (broadcastInDim S1x512 ![1] bcast_S512_S1x512_1 bias))

/-- The result: the contributions summed into their window roots' rows, then tanh. -/
def tail (yt yl yr : FVec Ideal S100000x512 .f32) (bias : FVec Ideal S512 .f32) (parent level pos sib : IVec S100000 32) :
    FVec Ideal S100000x512 .f32 :=
  Host.tanh (Host.scatterAdd scatter_S100000x512_S199999x1_S199999x512_1_0_0_1
    (broadcastInDim S100000x512 ![] bcast_S_S100000x512 (constant (F := Ideal) S_ .f32 0x00000000#32))
    (broadcastInDim S199999x1 ![0] bcast_S199999_S199999x1_0 (seg parent))
    (contrib yt yl yr bias parent level pos sib))

end Cert.ReferenceIdeal.Tail

end
-- ==== Proof.RefSide.lean ====
/-
  The reference program's run, read back: its result is the shared tail of its three projections, each the
  node features times one transposed weight matrix.
-/
import proofs.«167196_j88227218194540_1_alg».proof.Proof.Gen.ReferenceIdeal.Run
import proofs.«167196_j88227218194540_1_alg».proof.Proof.Gen.ReferenceIdeal.Read
import proofs.«167196_j88227218194540_1_alg».proof.Proof.TailRef
import proofs.«167196_j88227218194540_1_alg».proof.Proof.TriProduct

noncomputable section

namespace Cert.ReferenceIdeal.RefValue

open Cert.ReferenceIdeal Cert.ReferenceIdeal.Gen Cert.ReferenceIdeal.Tail
open Idealize.ShloMosaic Idealize.ShloMosaic.TcCoe Idealize.SL.Sem

/-- One projection as the reference computes it: the features times the transposed weights. -/
def refProj (x : FVec Ideal S100000x512 .f32) (w : FVec Ideal S512x512 .f32) : FVec Ideal S100000x512 .f32 :=
  Host.dotGeneral dot_S100000x512_S512x512_S100000x512_1_0_0_1_n_n none x (transpose S512x512 [1, 0] w transposes_S512x512_S512x512_1_0)

/-- That projection, entry by entry: the host's product over the one contracted axis is the sum over k of the
    features at (i, k) times the transposed weights at (k, j), which are the weights at (j, k). -/
theorem refProj_eq (x : FVec Ideal S100000x512 .f32) (w : FVec Ideal S512x512 .f32) :
    refProj x w = Cert.TriProduct.proj x w := by
  funext i
  show Read.val_main_v1 (F := Ideal) x w i = _
  rw [Read.val_main_v1_apply]
  unfold Cert.TriProduct.proj
  refine Finset.sum_congr rfl fun k _ => ?_
  rw [Read.val_main_v0_apply]
  have el : Read.lidx_main_v1 i k = ValueIdx.ix2 (i 0) k := funext fun a => by
    match a with
    | ⟨0, _⟩ => rfl
    | ⟨1, _⟩ => rfl
  have er : Read.idx_main_v0 (Read.ridx_main_v1 i k) = ValueIdx.ix2 (i 1) k := funext fun a => by
    match a with
    | ⟨0, _⟩ => rfl
    | ⟨1, _⟩ => rfl
  rw [el, er]
  rfl

set_option maxRecDepth 8192 in
/-- The run's composed term is the tail of the three projections and the other arguments. -/
theorem result_is_tail (m : (ℓ : Loc nD τ sig) → Buf (Elt Ideal) ℓ) (c : Dev nD) :
    Value.res_main_v90 (F := Ideal) m c
      = tail (refProj (m ((c.tc : Thread nD τ).loc main_arg0)) (m ((c.tc : Thread nD τ).loc main_arg1))) (refProj (m ((c.tc : Thread nD τ).loc main_arg0)) (m ((c.tc : Thread nD τ).loc main_arg2))) (refProj (m ((c.tc : Thread nD τ).loc main_arg0)) (m ((c.tc : Thread nD τ).loc main_arg3)))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Value.res_main_v90
  rfl

end Cert.ReferenceIdeal.RefValue

end
-- ==== Proof.Algebraic.lean ====
/-
  The two idealized programs end with equal results.  The kernel program ends with the shared tail of the three
  column blocks of one wide product, which are the three projections of the features; the reference ends with the
  same tail of its three products with transposed weights, which are the same projections entry by entry.  The
  tail is written once over each program's own dimension records; the records hold the same numbers, so the two
  writings are one function.  No finiteness of the inputs is used: both sides are the same sums of the same
  products in the same order.
-/
import proofs.«167196_j88227218194540_1_alg».proof.Defs
import proofs.«167196_j88227218194540_1_alg».proof.Proof.KernelResult
import proofs.«167196_j88227218194540_1_alg».proof.Proof.RefSide
import proofs.«167196_j88227218194540_1_alg».proof.Proof.Gen.Pre_finite_inputs

noncomputable section

namespace Cert.Proof.Equal

open Idealize.ShloMosaic Idealize.ShloMosaic.TcCoe Idealize.SL.Sem

/-- The tail over the kernel program's dimension records is the tail over the reference's. -/
theorem tail_eq (yt yl yr : FVec Ideal Cert.KernelIdeal.S100000x512 .f32) (b : FVec Ideal Cert.KernelIdeal.S512 .f32)
    (p l po s : IVec Cert.KernelIdeal.S100000 32) :
    Cert.KernelIdeal.Tail.tail yt yl yr b p l po s = Cert.ReferenceIdeal.Tail.tail yt yl yr b p l po s := rfl

theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.RefValue.result_is_tail, Cert.ReferenceIdeal.RefValue.refProj_eq,
    Cert.ReferenceIdeal.RefValue.refProj_eq, Cert.ReferenceIdeal.RefValue.refProj_eq, a0, a1, a2, a3, a4, a5, a6, a7, a8]
  exact (tail_eq _ _ _ _ _ _ _ _).symm

end Cert.Proof.Equal

end
-- ==== Proof.lean ====
/-
  A tree convolution: every node's features are projected by three weight matrices (top, left, right); every edge
  of the tree — each node with itself, and each non-root node with its parent — adds a combination of the hovered
  node's three projections, weighted by position coefficients, plus the bias, to its window root's row; tanh closes.

  The kernel program stacks the three weight matrices and computes the three projections as ONE matrix product on the
  accelerator, a hundred blocks of a thousand rows, then cuts the product into three blocks of columns on the host;
  the reference computes three products with transposed weights.  Both then run the same lines on the host.

  Frames: the kernel program's run (at the bit-exact and at the ideal instance alike) is the one stacking line, the
  region, and the lines after it; the body loads its two blocks, multiplies and stores the whole output block, and no
  host line writes an argument.  The reference's frame is its run with the result dropped.  The idealization rewrote
  nothing, so `preserves` is trivial.  Equal results: see Proof/Algebraic.lean.
-/
import proofs.«167196_j88227218194540_1_alg».proof.Defs
import proofs.«167196_j88227218194540_1_alg».proof.Proof.Gen.Kernel
import proofs.«167196_j88227218194540_1_alg».proof.Proof.Gen.KernelIdeal
import proofs.«167196_j88227218194540_1_alg».proof.Proof.Gen.ReferenceIdeal
import proofs.«167196_j88227218194540_1_alg».proof.Proof.Gen.Pre_finite_inputs
import proofs.«167196_j88227218194540_1_alg».proof.Proof.RegionBits
import proofs.«167196_j88227218194540_1_alg».proof.Proof.RegionIdeal
import proofs.«167196_j88227218194540_1_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Region.frame m ρ,
  fun m ρ _ => Cert.KernelIdeal.Region.frame m ρ,
  fun m ρ _ => (θ_run Cert.ReferenceIdeal.defs _ _).mono (fun _ h c => (h c).2) (Cert.ReferenceIdeal.Value.run (F := Ideal) m ρ),
  trivial,
  Cert.Proof.Equal.algebraic⟩

end Cert.Proof

end
